-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S768x768 : Shape := ⟨2, ![768, 768]⟩
abbrev S768 : Shape := ⟨1, ![768]⟩
abbrev S200000 : Shape := ⟨1, ![200000]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S50000x768 .f32) (main_arg1 : FVec F S768x768 .f32) (main_arg2 : FVec F S768 .f32) (main_arg3 : FVec F S768x768 .f32) (main_arg4 : FVec F S768 .f32) (main_arg5 : IVec S200000 32) (main_arg6 : IVec S200000 32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S50000x768 : Shape := ⟨2, ![50000, 768]⟩
abbrev S768x768 : Shape := ⟨2, ![768, 768]⟩
abbrev S768 : Shape := ⟨1, ![768]⟩
abbrev S200000 : Shape := ⟨1, ![200000]⟩
abbrev S_ : Shape := ⟨0, ![]⟩
abbrev S200000x1 : Shape := ⟨2, ![200000, 1]⟩
abbrev S8000x1 : Shape := ⟨2, ![8000, 1]⟩
abbrev S1x768 : Shape := ⟨2, ![1, 768]⟩
abbrev S1000x768 : Shape := ⟨2, ![1000, 768]⟩
abbrev S200000x768 : Shape := ⟨2, ![200000, 768]⟩
abbrev S8000x768 : Shape := ⟨2, ![8000, 768]⟩
abbrev S1000 : Shape := ⟨1, ![1000]⟩
abbrev S1000x1 : Shape := ⟨2, ![1000, 1]⟩

abbrev nBuf : Space → Nat
  | .hbm => 81
  | .vmem => 24
  | .smem => 0
  | _ => 0

abbrev bufTy : (tb : Table) → Fin (tcTables nBuf tb) → BufTy
  | .hbm, ⟨0, _⟩ => ⟨S50000x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S200000, .i32⟩
  | .hbm, ⟨6, _⟩ => ⟨S200000, .i32⟩
  | .hbm, ⟨7, _⟩ => ⟨S_, .f32⟩
  | .hbm, ⟨8, _⟩ => ⟨S200000x1, .f32⟩
  | .hbm, ⟨9, _⟩ => ⟨S_, .f32⟩
  | .hbm, ⟨10, _⟩ => ⟨S8000x1, .f32⟩
  | .hbm, ⟨11, _⟩ => ⟨S200000x1, .i32⟩
  | .hbm, ⟨12, _⟩ => ⟨S8000x1, .f32⟩
  | .hbm, ⟨13, _⟩ => ⟨S_, .f32⟩
  | .hbm, ⟨14, _⟩ => ⟨S8000x1, .f32⟩
  | .hbm, ⟨15, _⟩ => ⟨S8000x1, .f32⟩
  | .hbm, ⟨16, _⟩ => ⟨S_, .f32⟩
  | .hbm, ⟨17, _⟩ => ⟨S8000x1, .f32⟩
  | .hbm, ⟨18, _⟩ => ⟨S8000x1, .f32⟩
  | .hbm, ⟨19, _⟩ => ⟨S1x768, .f32⟩
  | .hbm, ⟨20, _⟩ => ⟨S50000x768, .f32⟩
  | .hbm, ⟨21, _⟩ => ⟨S_, .i32⟩
  | .hbm, ⟨22, _⟩ => ⟨S200000, .i32⟩
  | .hbm, ⟨23, _⟩ => ⟨S200000, .i1⟩
  | .hbm, ⟨24, _⟩ => ⟨S_, .i32⟩
  | .hbm, ⟨25, _⟩ => ⟨S200000, .i32⟩
  | .hbm, ⟨26, _⟩ => ⟨S200000, .i32⟩
  | .hbm, ⟨27, _⟩ => ⟨S200000, .i32⟩
  | .hbm, ⟨28, _⟩ => ⟨S200000x1, .i32⟩
  | .hbm, ⟨29, _⟩ => ⟨S200000x768, .f32⟩
  | .hbm, ⟨30, _⟩ => ⟨S_, .f32⟩
  | .hbm, ⟨31, _⟩ => ⟨S8000x768, .f32⟩
  | .hbm, ⟨32, _⟩ => ⟨S200000x1, .i32⟩
  | .hbm, ⟨33, _⟩ => ⟨S8000x768, .f32⟩
  | .hbm, ⟨34, _⟩ => ⟨S8000x768, .f32⟩
  | .hbm, ⟨35, _⟩ => ⟨S8000x768, .f32⟩
  | .hbm, ⟨36, _⟩ => ⟨S_, .i32⟩
  | .hbm, ⟨37, _⟩ => ⟨S200000, .i32⟩
  | .hbm, ⟨38, _⟩ => ⟨S200000, .i1⟩
  | .hbm, ⟨39, _⟩ => ⟨S_, .i32⟩
  | .hbm, ⟨40, _⟩ => ⟨S200000, .i32⟩
  | .hbm, ⟨41, _⟩ => ⟨S200000, .i32⟩
  | .hbm, ⟨42, _⟩ => ⟨S200000, .i32⟩
  | .hbm, ⟨43, _⟩ => ⟨S200000x1, .i32⟩
  | .hbm, ⟨44, _⟩ => ⟨S200000x768, .f32⟩
  | .hbm, ⟨45, _⟩ => ⟨S_, .f32⟩
  | .hbm, ⟨46, _⟩ => ⟨S50000x768, .f32⟩
  | .hbm, ⟨47, _⟩ => ⟨S200000x1, .i32⟩
  | .hbm, ⟨48, _⟩ => ⟨S50000x768, .f32⟩
  | .hbm, ⟨49, _⟩ => ⟨S50000x768, .bf16⟩
  | .hbm, ⟨50, _⟩ => ⟨S1x768, .f32⟩
  | .hbm, ⟨51, _⟩ => ⟨S50000x768, .f32⟩
  | .hbm, ⟨52, _⟩ => ⟨S_, .i32⟩
  | .hbm, ⟨53, _⟩ => ⟨S200000, .i32⟩
  | .hbm, ⟨54, _⟩ => ⟨S200000, .i1⟩
  | .hbm, ⟨55, _⟩ => ⟨S_, .i32⟩
  | .hbm, ⟨56, _⟩ => ⟨S200000, .i32⟩
  | .hbm, ⟨57, _⟩ => ⟨S200000, .i32⟩
  | .hbm, ⟨58, _⟩ => ⟨S200000, .i32⟩
  | .hbm, ⟨59, _⟩ => ⟨S200000x1, .i32⟩
  | .hbm, ⟨60, _⟩ => ⟨S200000x768, .f32⟩
  | .hbm, ⟨61, _⟩ => ⟨S_, .f32⟩
  | .hbm, ⟨62, _⟩ => ⟨S8000x768, .f32⟩
  | .hbm, ⟨63, _⟩ => ⟨S200000x1, .i32⟩
  | .hbm, ⟨64, _⟩ => ⟨S8000x768, .f32⟩
  | .hbm, ⟨65, _⟩ => ⟨S8000x768, .f32⟩
  | .hbm, ⟨66, _⟩ => ⟨S8000x768, .f32⟩
  | .hbm, ⟨67, _⟩ => ⟨S_, .i32⟩
  | .hbm, ⟨68, _⟩ => ⟨S200000, .i32⟩
  | .hbm, ⟨69, _⟩ => ⟨S200000, .i1⟩
  | .hbm, ⟨70, _⟩ => ⟨S_, .i32⟩
  | .hbm, ⟨71, _⟩ => ⟨S200000, .i32⟩
  | .hbm, ⟨72, _⟩ => ⟨S200000, .i32⟩
  | .hbm, ⟨73, _⟩ => ⟨S200000, .i32⟩
  | .hbm, ⟨74, _⟩ => ⟨S200000x1, .i32⟩
  | .hbm, ⟨75, _⟩ => ⟨S200000x768, .f32⟩
  | .hbm, ⟨76, _⟩ => ⟨S_, .f32⟩
  | .hbm, ⟨77, _⟩ => ⟨S50000x768, .f32⟩
  | .hbm, ⟨78, _⟩ => ⟨S200000x1, .i32⟩
  | .hbm, ⟨79, _⟩ => ⟨S50000x768, .f32⟩
  | .hbm, ⟨80, _⟩ => ⟨S50000x768, .f32⟩
  | .local _ .vmem, ⟨0, _⟩ => ⟨S1000x768, .f32⟩
  | .local _ .vmem, ⟨1, _⟩ => ⟨S1000x768, .f32⟩
  | .local _ .vmem, ⟨2, _⟩ => ⟨S768x768, .f32⟩
  | .local _ .vmem, ⟨3, _⟩ => ⟨S1x768, .f32⟩
  | .local _ .vmem, ⟨4, _⟩ => ⟨S1000x768, .f32⟩
  | .local _ .vmem, ⟨5, _⟩ => ⟨S1000x768, .f32⟩
  | .local _ .vmem, ⟨6, _⟩ => ⟨S1000x768, .f32⟩
  | .local _ .vmem, ⟨7, _⟩ => ⟨S1000x768, .f32⟩
  | .local _ .vmem, ⟨8, _⟩ => ⟨S1000x768, .f32⟩
  | .local _ .vmem, ⟨9, _⟩ => ⟨S1000x768, .f32⟩
  | .local _ .vmem, ⟨10, _⟩ => ⟨S1000x768, .bf16⟩
  | .local _ .vmem, ⟨11, _⟩ => ⟨S1000x768, .bf16⟩
  | .local _ .vmem, ⟨12, _⟩ => ⟨S1000x768, .bf16⟩
  | .local _ .vmem, ⟨13, _⟩ => ⟨S1000x768, .bf16⟩
  | .local _ .vmem, ⟨14, _⟩ => ⟨S768x768, .f32⟩
  | .local _ .vmem, ⟨15, _⟩ => ⟨S1x768, .f32⟩
  | .local _ .vmem, ⟨16, _⟩ => ⟨S1000x768, .f32⟩
  | .local _ .vmem, ⟨17, _⟩ => ⟨S1000x768, .f32⟩
  | .local _ .vmem, ⟨18, _⟩ => ⟨S1000x768, .f32⟩
  | .local _ .vmem, ⟨19, _⟩ => ⟨S1000x768, .f32⟩
  | .local _ .vmem, ⟨20, _⟩ => ⟨S1000x768, .f32⟩
  | .local _ .vmem, ⟨21, _⟩ => ⟨S1000x768, .f32⟩
  | .local _ .vmem, ⟨22, _⟩ => ⟨S1000x768, .f32⟩
  | .local _ .vmem, ⟨23, _⟩ => ⟨S1000x768, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_c_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S200000x1 : S_.BroadcastsInDim S200000x1 (![] : Fin 0 → Fin S200000x1.rank)
  bcast_S_S8000x1 : S_.BroadcastsInDim S8000x1 (![] : Fin 0 → Fin S8000x1.rank)
  bcast_S200000_S200000x1_0 : S200000.BroadcastsInDim S200000x1 (![0] : Fin 1 → Fin S200000x1.rank)
  shapeCasts_S768_S1x768 : S768.ShapeCasts S1x768
  inb_S1000x768_S1000x768_0_0 : ∀ a, (![0, 0] : Fin 2 → Nat) a + S1000x768.size a ≤ S1000x768.size a
  h_S1000x768 : 0 < S1000x768.numel
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  bcast_S_S200000 : S_.BroadcastsInDim S200000 (![] : Fin 0 → Fin S200000.rank)
  bcast_S_S8000x768 : S_.BroadcastsInDim S8000x768 (![] : Fin 0 → Fin S8000x768.rank)
  bcast_S8000x1_S8000x768_0_1 : S8000x1.BroadcastsInDim S8000x768 (![0, 1] : Fin 2 → Fin S8000x768.rank)
  bcast_S_S50000x768 : S_.BroadcastsInDim S50000x768 (![] : Fin 0 → Fin S50000x768.rank)
  shapeCasts_S1000x768_S1000x768 : S1000x768.ShapeCasts S1000x768
  reduces_S1000x768_S1000 : S1000x768.Reduces [1] S1000
  shapeCasts_S1000_S1000x1 : S1000.ShapeCasts S1000x1
  broadcasts_S1000x1_S1000x768 : S1000x1.Broadcasts S1000x768
  packedbf16_S1000x768_S1000x768_0_0 : (Rect.unit (s := S1000x768) ![0, 0] S1000x768.size inb_S1000x768_S1000x768_0_0).PackedRows (EltTy.packing .bf16)
  scatter_S8000x1_S200000x1_S200000x1_1_0_0_1_wf : ScatterDims.WF S8000x1 S200000x1 S200000x1 [1] [0] [0] 1
  dot_S1000x768_S768x768_S1000x768_1_0_0_1_n_n_wf : DotDims.WF S1000x768 S768x768 S1000x768 [1] [0] [0] [1] [] []
  gather_S50000x768_S200000x1_S200000x768_1_0_n_n_0_1_1768_wf : GatherDims.WF S50000x768 S200000x1 S200000x768 [1] [0] [] [0] [] 1 ![1, 768]
  scatter_S8000x768_S200000x1_S200000x768_1_0_0_1_wf : ScatterDims.WF S8000x768 S200000x1 S200000x768 [1] [0] [0] 1
  gather_S8000x768_S200000x1_S200000x768_1_0_n_n_0_1_1768_wf : GatherDims.WF S8000x768 S200000x1 S200000x768 [1] [0] [] [0] [] 1 ![1, 768]
  scatter_S50000x768_S200000x1_S200000x768_1_0_0_1_wf : ScatterDims.WF S50000x768 S200000x1 S200000x768 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S50000x768.size a
  hwx0_0 : ∀ i : grid0.Coords, EltTy.bits .f32 = 32 ∨ (Rect.block (s := S50000x768) S1000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x768.size a ≤ S50000x768.size a
  hwx0_3 : ∀ i : grid0.Coords, EltTy.bits .f32 = 32 ∨ (Rect.block (s := S50000x768) S1000x768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x768.size a ≤ S50000x768.size a
  hwx1_0 : ∀ i : grid1.Coords, EltTy.bits .f32 = 32 ∨ (Rect.block (s := S50000x768) S1000x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x768.size a ≤ S50000x768.size a
  hwx1_1 : ∀ i : grid1.Coords, EltTy.bits .f32 = 32 ∨ (Rect.block (s := S50000x768) S1000x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x768.size a ≤ S50000x768.size a
  hwx1_2 : ∀ i : grid1.Coords, EltTy.bits .bf16 = 32 ∨ (Rect.block (s := S50000x768) S1000x768.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x768.size a ≤ S50000x768.size a
  hwx2_0 : ∀ i : grid2.Coords, EltTy.bits .bf16 = 32 ∨ (Rect.block (s := S50000x768) S1000x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x768.size a ≤ S50000x768.size a
  hwx2_3 : ∀ i : grid2.Coords, EltTy.bits .f32 = 32 ∨ (Rect.block (s := S50000x768) S1000x768.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x768.size a ≤ S50000x768.size a
  hwx3_0 : ∀ i : grid3.Coords, EltTy.bits .f32 = 32 ∨ (Rect.block (s := S50000x768) S1000x768.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x768.size a ≤ S50000x768.size a
  hwx3_1 : ∀ i : grid3.Coords, EltTy.bits .f32 = 32 ∨ (Rect.block (s := S50000x768) S1000x768.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x768.size a ≤ S50000x768.size a
  hwx3_2 : ∀ i : grid3.Coords, EltTy.bits .f32 = 32 ∨ (Rect.block (s := S50000x768) S1000x768.size (cc3_transform_2 i) (hinb3_2 i)).WholeWords (EltTy.packing .f32)

variable [Facts₀]

def scatter_S8000x1_S200000x1_S200000x1_1_0_0_1 : ScatterDims S8000x1 S200000x1 S200000x1 where
  updateWindowDims := [1]
  insertedWindowDims := [0]
  scatterDimsToOperandDims := [0]
  indexVectorDim := 1
  wf := scatter_S8000x1_S200000x1_S200000x1_1_0_0_1_wf
def dot_S1000x768_S768x768_S1000x768_1_0_0_1_n_n : DotDims S1000x768 S768x768 S1000x768 where
  lhsContracting := [1]
  rhsContracting := [0]
  lhsNonContracting := [0]
  rhsNonContracting := [1]
  lhsBatch := []
  rhsBatch := []
  wf := dot_S1000x768_S768x768_S1000x768_1_0_0_1_n_n_wf
def gather_S50000x768_S200000x1_S200000x768_1_0_n_n_0_1_1768 : GatherDims S50000x768 S200000x1 S200000x768 where
  offsetDims := [1]
  collapsedSliceDims := [0]
  operandBatchingDims := []
  startIndicesBatchingDims := []
  startIndexMap := [0]
  indexVectorDim := 1
  sliceSizes := ![1, 768]
  wf := gather_S50000x768_S200000x1_S200000x768_1_0_n_n_0_1_1768_wf
def scatter_S8000x768_S200000x1_S200000x768_1_0_0_1 : ScatterDims S8000x768 S200000x1 S200000x768 where
  updateWindowDims := [1]
  insertedWindowDims := [0]
  scatterDimsToOperandDims := [0]
  indexVectorDim := 1
  wf := scatter_S8000x768_S200000x1_S200000x768_1_0_0_1_wf
def gather_S8000x768_S200000x1_S200000x768_1_0_n_n_0_1_1768 : GatherDims S8000x768 S200000x1 S200000x768 where
  offsetDims := [1]
  collapsedSliceDims := [0]
  operandBatchingDims := []
  startIndicesBatchingDims := []
  startIndexMap := [0]
  indexVectorDim := 1
  sliceSizes := ![1, 768]
  wf := gather_S8000x768_S200000x1_S200000x768_1_0_n_n_0_1_1768_wf
def scatter_S50000x768_S200000x1_S200000x768_1_0_0_1 : ScatterDims S50000x768 S200000x1 S200000x768 where
  updateWindowDims := [1]
  insertedWindowDims := [0]
  scatterDimsToOperandDims := [0]
  indexVectorDim := 1
  wf := scatter_S50000x768_S200000x1_S200000x768_1_0_0_1_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1000x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1000x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1000x768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v32) S1000x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1000x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v34) S1000x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1000x768.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1000x768.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x768 : Shape := ⟨2, ![50000, 768]⟩
abbrev S768x768 : Shape := ⟨2, ![768, 768]⟩
abbrev S768 : Shape := ⟨1, ![768]⟩
abbrev S200000 : Shape := ⟨1, ![200000]⟩
abbrev S1x768 : Shape := ⟨2, ![1, 768]⟩
abbrev S_ : Shape := ⟨0, ![]⟩
abbrev S200000x1 : Shape := ⟨2, ![200000, 1]⟩
abbrev S200000x768 : Shape := ⟨2, ![200000, 768]⟩
abbrev S8000x768 : Shape := ⟨2, ![8000, 768]⟩
abbrev S8000x1 : Shape := ⟨2, ![8000, 1]⟩
abbrev S50000 : Shape := ⟨1, ![50000]⟩
abbrev S50000x1 : Shape := ⟨2, ![50000, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S200000, .i32⟩
  | .hbm, ⟨6, _⟩ => ⟨S200000, .i32⟩
  | .hbm, ⟨7, _⟩ => ⟨S50000x768, .f32⟩
  | .hbm, ⟨8, _⟩ => ⟨S1x768, .f32⟩
  | .hbm, ⟨9, _⟩ => ⟨S50000x768, .f32⟩
  | .hbm, ⟨10, _⟩ => ⟨S50000x768, .f32⟩
  | .hbm, ⟨11, _⟩ => ⟨S_, .i32⟩
  | .hbm, ⟨12, _⟩ => ⟨S200000, .i32⟩
  | .hbm, ⟨13, _⟩ => ⟨S200000, .i1⟩
  | .hbm, ⟨14, _⟩ => ⟨S_, .i32⟩
  | .hbm, ⟨15, _⟩ => ⟨S200000, .i32⟩
  | .hbm, ⟨16, _⟩ => ⟨S200000, .i32⟩
  | .hbm, ⟨17, _⟩ => ⟨S200000, .i32⟩
  | .hbm, ⟨18, _⟩ => ⟨S200000x1, .i32⟩
  | .hbm, ⟨19, _⟩ => ⟨S200000x768, .f32⟩
  | .hbm, ⟨20, _⟩ => ⟨S_, .f32⟩
  | .hbm, ⟨21, _⟩ => ⟨S8000x768, .f32⟩
  | .hbm, ⟨22, _⟩ => ⟨S200000x1, .i32⟩
  | .hbm, ⟨23, _⟩ => ⟨S8000x768, .f32⟩
  | .hbm, ⟨24, _⟩ => ⟨S_, .f32⟩
  | .hbm, ⟨25, _⟩ => ⟨S200000x1, .f32⟩
  | .hbm, ⟨26, _⟩ => ⟨S_, .f32⟩
  | .hbm, ⟨27, _⟩ => ⟨S8000x1, .f32⟩
  | .hbm, ⟨28, _⟩ => ⟨S200000x1, .i32⟩
  | .hbm, ⟨29, _⟩ => ⟨S8000x1, .f32⟩
  | .hbm, ⟨30, _⟩ => ⟨S_, .f32⟩
  | .hbm, ⟨31, _⟩ => ⟨S8000x1, .f32⟩
  | .hbm, ⟨32, _⟩ => ⟨S8000x1, .f32⟩
  | .hbm, ⟨33, _⟩ => ⟨S8000x768, .f32⟩
  | .hbm, ⟨34, _⟩ => ⟨S8000x768, .f32⟩
  | .hbm, ⟨35, _⟩ => ⟨S_, .i32⟩
  | .hbm, ⟨36, _⟩ => ⟨S200000, .i32⟩
  | .hbm, ⟨37, _⟩ => ⟨S200000, .i1⟩
  | .hbm, ⟨38, _⟩ => ⟨S_, .i32⟩
  | .hbm, ⟨39, _⟩ => ⟨S200000, .i32⟩
  | .hbm, ⟨40, _⟩ => ⟨S200000, .i32⟩
  | .hbm, ⟨41, _⟩ => ⟨S200000, .i32⟩
  | .hbm, ⟨42, _⟩ => ⟨S200000x1, .i32⟩
  | .hbm, ⟨43, _⟩ => ⟨S200000x768, .f32⟩
  | .hbm, ⟨44, _⟩ => ⟨S_, .f32⟩
  | .hbm, ⟨45, _⟩ => ⟨S50000x768, .f32⟩
  | .hbm, ⟨46, _⟩ => ⟨S200000x1, .i32⟩
  | .hbm, ⟨47, _⟩ => ⟨S50000x768, .f32⟩
  | .hbm, ⟨48, _⟩ => ⟨S50000x768, .f32⟩
  | .hbm, ⟨49, _⟩ => ⟨S50000x768, .f32⟩
  | .hbm, ⟨50, _⟩ => ⟨S_, .f32⟩
  | .hbm, ⟨51, _⟩ => ⟨S50000, .f32⟩
  | .hbm, ⟨52, _⟩ => ⟨S50000x1, .f32⟩
  | .hbm, ⟨53, _⟩ => ⟨S50000x1, .f32⟩
  | .hbm, ⟨54, _⟩ => ⟨S_, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x768, .f32⟩
  | .hbm, ⟨59, _⟩ => ⟨S50000x768, .f32⟩
  | .hbm, ⟨60, _⟩ => ⟨S_, .f32⟩
  | .hbm, ⟨61, _⟩ => ⟨S50000x768, .f32⟩
  | .hbm, ⟨62, _⟩ => ⟨S50000x768, .f32⟩
  | .hbm, ⟨63, _⟩ => ⟨S50000x768, .f32⟩
  | .hbm, ⟨64, _⟩ => ⟨S1x768, .f32⟩
  | .hbm, ⟨65, _⟩ => ⟨S50000x768, .f32⟩
  | .hbm, ⟨66, _⟩ => ⟨S50000x768, .f32⟩
  | .hbm, ⟨67, _⟩ => ⟨S_, .i32⟩
  | .hbm, ⟨68, _⟩ => ⟨S200000, .i32⟩
  | .hbm, ⟨69, _⟩ => ⟨S200000, .i1⟩
  | .hbm, ⟨70, _⟩ => ⟨S_, .i32⟩
  | .hbm, ⟨71, _⟩ => ⟨S200000, .i32⟩
  | .hbm, ⟨72, _⟩ => ⟨S200000, .i32⟩
  | .hbm, ⟨73, _⟩ => ⟨S200000, .i32⟩
  | .hbm, ⟨74, _⟩ => ⟨S200000x1, .i32⟩
  | .hbm, ⟨75, _⟩ => ⟨S200000x768, .f32⟩
  | .hbm, ⟨76, _⟩ => ⟨S_, .f32⟩
  | .hbm, ⟨77, _⟩ => ⟨S8000x768, .f32⟩
  | .hbm, ⟨78, _⟩ => ⟨S200000x1, .i32⟩
  | .hbm, ⟨79, _⟩ => ⟨S8000x768, .f32⟩
  | .hbm, ⟨80, _⟩ => ⟨S_, .f32⟩
  | .hbm, ⟨81, _⟩ => ⟨S200000x1, .f32⟩
  | .hbm, ⟨82, _⟩ => ⟨S_, .f32⟩
  | .hbm, ⟨83, _⟩ => ⟨S8000x1, .f32⟩
  | .hbm, ⟨84, _⟩ => ⟨S200000x1, .i32⟩
  | .hbm, ⟨85, _⟩ => ⟨S8000x1, .f32⟩
  | .hbm, ⟨86, _⟩ => ⟨S_, .f32⟩
  | .hbm, ⟨87, _⟩ => ⟨S8000x1, .f32⟩
  | .hbm, ⟨88, _⟩ => ⟨S8000x1, .f32⟩
  | .hbm, ⟨89, _⟩ => ⟨S8000x768, .f32⟩
  | .hbm, ⟨90, _⟩ => ⟨S8000x768, .f32⟩
  | .hbm, ⟨91, _⟩ => ⟨S_, .i32⟩
  | .hbm, ⟨92, _⟩ => ⟨S200000, .i32⟩
  | .hbm, ⟨93, _⟩ => ⟨S200000, .i1⟩
  | .hbm, ⟨94, _⟩ => ⟨S_, .i32⟩
  | .hbm, ⟨95, _⟩ => ⟨S200000, .i32⟩
  | .hbm, ⟨96, _⟩ => ⟨S200000, .i32⟩
  | .hbm, ⟨97, _⟩ => ⟨S200000, .i32⟩
  | .hbm, ⟨98, _⟩ => ⟨S200000x1, .i32⟩
  | .hbm, ⟨99, _⟩ => ⟨S200000x768, .f32⟩
  | .hbm, ⟨100, _⟩ => ⟨S_, .f32⟩
  | .hbm, ⟨101, _⟩ => ⟨S50000x768, .f32⟩
  | .hbm, ⟨102, _⟩ => ⟨S200000x1, .i32⟩
  | .hbm, ⟨103, _⟩ => ⟨S50000x768, .f32⟩
  | .hbm, ⟨104, _⟩ => ⟨S50000x768, .f32⟩
  | .hbm, ⟨105, _⟩ => ⟨S50000x768, .f32⟩
  | .hbm, ⟨106, _⟩ => ⟨S_, .f32⟩
  | .hbm, ⟨107, _⟩ => ⟨S50000, .f32⟩
  | .hbm, ⟨108, _⟩ => ⟨S50000x1, .f32⟩
  | .hbm, ⟨109, _⟩ => ⟨S50000x1, .f32⟩
  | .hbm, ⟨110, _⟩ => ⟨S_, .f32⟩
  | .hbm, ⟨111, _⟩ => ⟨S_, .f32⟩
  | .hbm, ⟨112, _⟩ => ⟨S50000x1, .f32⟩
  | .hbm, ⟨113, _⟩ => ⟨S50000x1, .f32⟩
  | .hbm, ⟨114, _⟩ => ⟨S50000x768, .f32⟩
  | .hbm, ⟨115, _⟩ => ⟨S50000x768, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_cst : Ref sig .tc := ⟨.hbm, 50, rfl⟩
abbrev main_call0_v1 : Ref sig .tc := ⟨.hbm, 51, rfl⟩
abbrev main_call0_v2 : Ref sig .tc := ⟨.hbm, 52, rfl⟩
abbrev main_v33 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call2_cst : Ref sig .tc := ⟨.hbm, 60, rfl⟩
abbrev main_call2_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_14 : Ref sig .tc := ⟨.hbm, 91, rfl⟩
abbrev main_v60 : Ref sig .tc := ⟨.hbm, 92, rfl⟩
abbrev main_v61 : Ref sig .tc := ⟨.hbm, 93, rfl⟩
abbrev main_c_15 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_16 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call3_v0 : Ref sig .tc := ⟨.hbm, 105, rfl⟩
abbrev main_call3_cst : Ref sig .tc := ⟨.hbm, 106, rfl⟩
abbrev main_call3_v1 : Ref sig .tc := ⟨.hbm, 107, rfl⟩
abbrev main_call3_v2 : Ref sig .tc := ⟨.hbm, 108, rfl⟩
abbrev main_v71 : Ref sig .tc := ⟨.hbm, 109, rfl⟩
abbrev main_cst_17 : Ref sig .tc := ⟨.hbm, 110, rfl⟩
abbrev main_call4_v0 : Ref sig .tc := ⟨.hbm, 111, rfl⟩
abbrev main_call4_v1 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S8000x768 : S_.BroadcastsInDim S8000x768 (![] : Fin 0 → Fin S8000x768.rank)
  bcast_S_S200000x1 : S_.BroadcastsInDim S200000x1 (![] : Fin 0 → Fin S200000x1.rank)
  bcast_S_S8000x1 : S_.BroadcastsInDim S8000x1 (![] : Fin 0 → Fin S8000x1.rank)
  bcast_S8000x1_S8000x768_0_1 : S8000x1.BroadcastsInDim S8000x768 (![0, 1] : Fin 2 → Fin S8000x768.rank)
  bcast_S_S50000x768 : S_.BroadcastsInDim S50000x768 (![] : Fin 0 → Fin S50000x768.rank)
  reducesTo_S50000x768_S50000_d1 : S50000x768.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x768_0_1 : S50000x1.BroadcastsInDim S50000x768 (![0, 1] : Fin 2 → Fin S50000x768.rank)
  dot_S50000x768_S768x768_S50000x768_1_0_0_1_n_n_wf : DotDims.WF S50000x768 S768x768 S50000x768 [1] [0] [0] [1] [] []
  gather_S50000x768_S200000x1_S200000x768_1_0_n_n_0_1_1768_wf : GatherDims.WF S50000x768 S200000x1 S200000x768 [1] [0] [] [0] [] 1 ![1, 768]
  scatter_S8000x768_S200000x1_S200000x768_1_0_0_1_wf : ScatterDims.WF S8000x768 S200000x1 S200000x768 [1] [0] [0] 1
  scatter_S8000x1_S200000x1_S200000x1_1_0_0_1_wf : ScatterDims.WF S8000x1 S200000x1 S200000x1 [1] [0] [0] 1
  gather_S8000x768_S200000x1_S200000x768_1_0_n_n_0_1_1768_wf : GatherDims.WF S8000x768 S200000x1 S200000x768 [1] [0] [] [0] [] 1 ![1, 768]
  scatter_S50000x768_S200000x1_S200000x768_1_0_0_1_wf : ScatterDims.WF S50000x768 S200000x1 S200000x768 [1] [0] [0] 1

variable [Facts₀]

def dot_S50000x768_S768x768_S50000x768_1_0_0_1_n_n : DotDims S50000x768 S768x768 S50000x768 where
  lhsContracting := [1]
  rhsContracting := [0]
  lhsNonContracting := [0]
  rhsNonContracting := [1]
  lhsBatch := []
  rhsBatch := []
  wf := dot_S50000x768_S768x768_S50000x768_1_0_0_1_n_n_wf
def gather_S50000x768_S200000x1_S200000x768_1_0_n_n_0_1_1768 : GatherDims S50000x768 S200000x1 S200000x768 where
  offsetDims := [1]
  collapsedSliceDims := [0]
  operandBatchingDims := []
  startIndicesBatchingDims := []
  startIndexMap := [0]
  indexVectorDim := 1
  sliceSizes := ![1, 768]
  wf := gather_S50000x768_S200000x1_S200000x768_1_0_n_n_0_1_1768_wf
def scatter_S8000x768_S200000x1_S200000x768_1_0_0_1 : ScatterDims S8000x768 S200000x1 S200000x768 where
  updateWindowDims := [1]
  insertedWindowDims := [0]
  scatterDimsToOperandDims := [0]
  indexVectorDim := 1
  wf := scatter_S8000x768_S200000x1_S200000x768_1_0_0_1_wf
def scatter_S8000x1_S200000x1_S200000x1_1_0_0_1 : ScatterDims S8000x1 S200000x1 S200000x1 where
  updateWindowDims := [1]
  insertedWindowDims := [0]
  scatterDimsToOperandDims := [0]
  indexVectorDim := 1
  wf := scatter_S8000x1_S200000x1_S200000x1_1_0_0_1_wf
def gather_S8000x768_S200000x1_S200000x768_1_0_n_n_0_1_1768 : GatherDims S8000x768 S200000x1 S200000x768 where
  offsetDims := [1]
  collapsedSliceDims := [0]
  operandBatchingDims := []
  startIndicesBatchingDims := []
  startIndexMap := [0]
  indexVectorDim := 1
  sliceSizes := ![1, 768]
  wf := gather_S8000x768_S200000x1_S200000x768_1_0_n_n_0_1_1768_wf
def scatter_S50000x768_S200000x1_S200000x768_1_0_0_1 : ScatterDims S50000x768 S200000x1 S200000x768 where
  updateWindowDims := [1]
  insertedWindowDims := [0]
  scatterDimsToOperandDims := [0]
  indexVectorDim := 1
  wf := scatter_S50000x768_S200000x1_S200000x768_1_0_0_1_wf

class Facts : Prop extends Facts₀ where

variable [Facts]
-- ==== Proof.KRun.lean ====
/-
  The run of the whole program, read at its result: every weakly fair execution from a memory with zero counters
  terminates without a fault; the result array ends at what the last region leaves in it, written as the fold of
  the host stretches and of the four regions' write-backs from the launch memory (the buffer contents at the last
  boundary), and every argument array ends as launched.  The value modules read that fold back, region by region.
-/
import proofs.«144261_j48498770707323_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result array named: what the last boundary's contents hold at the result's buffer. -/
theorem run_main : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Whole

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.RegionLin.lean ====
/-
  The two projection regions, each read as one function of its input arrays.

  A projection region takes a [50000, 768] array X (1000 rows per grid point), a [768, 768] matrix W and a [1, 768]
  row b, both whole at every point, and stores X·W + b on the point's rows: entry (p, q) of the point's block is
  Σ_k X(p,k)·W(k,q) + b(0,q) — the matrix unit's product into a zero accumulator is the plain contraction over the
  extended reals, whatever the operands' formats, since a change of format is the identity there.  Block t of the
  result is rows 1000·t … 1000·t + 999 of the whole-array function (p, q) ↦ Σ_k X(p,k)·W(k,q) + b(0,q), and the
  fifty blocks tile the array.
-/
import proofs.«144261_j48498770707323_2_alg».proof.Proof.Gen.KernelIdeal.Frame
import proofs.«144261_j48498770707323_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Lin

open Cert.KernelIdeal Cert.KernelIdeal.Gen
open Idealize.ShloMosaic Idealize.ShloMosaic.ValueIdx Idealize.ShloMosaic.TcCoe Idealize.SL.Sem
open Idealize.ShloMosaic.Pipeline (Dat)

/-- Row p, column q of X·W + b, for an X of n rows. -/
def rowLin {n : Nat} (X : (⟨2, ![n, 768]⟩ : Shape).Idx → EReal) (W : (⟨2, ![768, 768]⟩ : Shape).Idx → EReal)
    (b : (⟨2, ![1, 768]⟩ : Shape).Idx → EReal) (p : Fin n) (q : Fin 768) : EReal :=
  (∑ k : Fin 768, X (ix2 p k) * W (ix2 k q)) + b (ix2 (0 : Fin 1) q)

/-- The whole-array function of a projection region. -/
def linG (X : S50000x768.Idx → EReal) (W : S768x768.Idx → EReal) (b : S1x768.Idx → EReal) : S50000x768.Idx → EReal :=
  fun i => rowLin X W b (i 0) (i 1)

theorem hz : (![0, 0] : Fin 2 → Nat) = fun _ => 0 := funext fun a => by fin_cases a <;> rfl

/-- The printed dimension numbers are the plain ones. -/
theorem dot_plain : dot_S1000x768_S768x768_S1000x768_1_0_0_1_n_n = DotDims.plain 1000 768 768 := rfl

/-- The payload of the first projection region at an entry of the block. -/
theorem pay0_apply (x0 : Vec Ideal S1000x768 .f32) (w : Vec Ideal S768x768 .f32) (b : Vec Ideal S1x768 .f32)
    (p : Fin 1000) (q : Fin 768) : k0_pay1 (F := Ideal) x0 w b (ix2 p q) = rowLin x0 w b p q := by
  unfold k0_pay1
  simp only [shapeCast_self]
  show FloatOps.matmul (F := Ideal) dot_S1000x768_S768x768_S1000x768_1_0_0_1_n_n none x0 w (constant S1000x768 .f32 0x00000000#32) (ix2 p q)
      + broadcastTo S1000x768 b broadcasts_S1x768_S1000x768 (ix2 p q) = _
  rw [broadcastTo_1b_ab_apply, dot_plain]
  exact congrArg (· + b (ix2 (0 : Fin 1) q)) (LibPlainDot.matmul_zero_apply none x0 w p q)

/-- The payload of the second projection region at an entry of the block. -/
theorem pay2_apply (x0 : Vec Ideal S1000x768 .bf16) (w : Vec Ideal S768x768 .f32) (b : Vec Ideal S1x768 .f32)
    (p : Fin 1000) (q : Fin 768) : k2_pay1 (F := Ideal) x0 w b (ix2 p q) = rowLin x0 w b p q := by
  unfold k2_pay1
  simp only [shapeCast_self]
  show FloatOps.matmul (F := Ideal) dot_S1000x768_S768x768_S1000x768_1_0_0_1_n_n none x0 w (constant S1000x768 .f32 0x00000000#32) (ix2 p q)
      + broadcastTo S1000x768 b broadcasts_S1x768_S1000x768 (ix2 p q) = _
  rw [broadcastTo_1b_ab_apply, dot_plain]
  exact congrArg (· + b (ix2 (0 : Fin 1) q)) (LibPlainDot.matmul_zero_apply none x0 w p q)

/-- A row of a block projects as the row of the array it was cut from. -/
theorem rowLin_block {n : Nat} (x0 : (⟨2, ![1000, 768]⟩ : Shape).Idx → EReal) (w b)
    (X : (⟨2, ![n, 768]⟩ : Shape).Idx → EReal) (W B) (p : Fin 1000) (q : Fin 768) (P : Fin n) (Q : Fin 768) (hQ : Q = q)
    (h0 : ∀ k, x0 (ix2 p k) = X (ix2 P k)) (h1 : ∀ k q', w (ix2 k q') = W (ix2 k q')) (h2 : ∀ q', b (ix2 (0 : Fin 1) q') = B (ix2 (0 : Fin 1) q')) :
    rowLin x0 w b p q = rowLin X W B P Q := by
  subst hQ
  unfold rowLin
  simp only [h0, h1, h2]

section Regions
variable (V : (c : Dev nD) → (b : Ref sig .tc) → Buf (Elt Ideal) ((c : Thread nD τ).loc b))

/-! ## The first projection region -/

/-- The index maps over the grid: the row windows' block at point t is row-block t; the matrix and the row are whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row input's block at point t is rows 1000·t … of the array. -/
theorem blk0_0 (c : Dev nD) (t : Fin cfg0.N) (p : Fin 1000) (q : Fin 768) (i : S50000x768.Idx)
    (h0 : (i 0).val = t.val * 1000 + p.val) (h1 : (i 1).val = q.val) :
    (iblk0 V c 0 t : Vec Ideal S1000x768 .f32) (ix2 p q) = (V c main_arg0 : S50000x768.Idx → EReal) i := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t 0 * 1000 + 1 * p.val = (i 0).val; rw [e0, h0]; omega
  | ⟨1, _⟩ => show win0_0.index t 1 * 768 + 1 * q.val = (i 1).val; rw [e1, h1]; omega

/-- The matrix window's block is the whole matrix. -/
theorem blk0_1 (c : Dev nD) (t : Fin cfg0.N) (k : Fin 768) (q : Fin 768) :
    (iblk0 V c 1 t : Vec Ideal S768x768 .f32) (ix2 k q) = (V c main_arg1 : S768x768.Idx → EReal) (ix2 k q) := by
  obtain ⟨-, -, e0, e1, -⟩ := idx0 t
  unfold iblk0
  rw [View.read_apply]
  show V c main_arg1 _ = V c main_arg1 _
  refine congrArg (V c main_arg1) ?_
  funext a
  apply Fin.ext
  match a with
  | ⟨0, _⟩ => show win0_1.index t 0 * 768 + 1 * k.val = k.val; rw [e0]; omega
  | ⟨1, _⟩ => show win0_1.index t 1 * 768 + 1 * q.val = q.val; rw [e1]; omega

/-- The row window's block is the whole row. -/
theorem blk0_2 (c : Dev nD) (t : Fin cfg0.N) (q : Fin 768) :
    (iblk0 V c 2 t : Vec Ideal S1x768 .f32) (ix2 (0 : Fin 1) q) = (V c main_v8 : S1x768.Idx → EReal) (ix2 (0 : Fin 1) q) := by
  obtain ⟨-, -, -, -, e0, e1, -⟩ := idx0 t
  unfold iblk0
  rw [View.read_apply]
  show V c main_v8 _ = V c main_v8 _
  refine congrArg (V c main_v8) ?_
  funext a
  apply Fin.ext
  match a with
  | ⟨0, _⟩ => show win0_2.index t 0 * 1 + 1 * 0 = 0; rw [e0]
  | ⟨1, _⟩ => show win0_2.index t 1 * 768 + 1 * q.val = q.val; rw [e1]; omega

/-- What point t writes back is block t of the whole-array function. -/
theorem flushed0_eq (c : Dev nD) (t : Fin cfg0.N) :
    (dat0 V c).flushed 3 t = ((cfg0.win 3).blk t).view.read (Elt Ideal) (linG (V c main_arg0) (V c main_arg1) (V c main_v8)) := by
  show (cfg0.win 3).cut (grid0.coords t) ((dat0 V c).after 3 t) = _
  rw [after0_3]
  unfold out0_3
  rw [View.canon_unit_zero hz]
  simp only [View.ld_unit_zero (S := S1000x768) hz, View.ld_unit_zero (S := S768x768) hz, View.ld_unit_zero (S := S1x768) hz]
  obtain ⟨-, -, -, -, -, -, e6, e7⟩ := idx0 t
  funext j
  obtain ⟨p, q, rfl⟩ : ∃ (p : Fin 1000) (q : Fin 768), j = ix2 p q := ⟨j 0, j 1, eq_ix2 j⟩
  refine (pay0_apply _ _ _ p q).trans ?_
  show _ = rowLin (V c main_arg0) (V c main_arg1) (V c main_v8) (((cfg0.win 3).blk t).view.emb (ix2 p q) 0) (((cfg0.win 3).blk t).view.emb (ix2 p q) 1)
  have hP : ((((cfg0.win 3).blk t).view.emb (ix2 p q) 0 : Fin 50000)).val = t.val * 1000 + p.val := by
    show win0_3.index t 0 * 1000 + 1 * p.val = _; rw [e6]; omega
  refine rowLin_block _ _ _ _ _ _ p q _ _ (Fin.ext (by show win0_3.index t 1 * 768 + 1 * q.val = q.val; rw [e7]; omega))
    (fun k => blk0_0 V c t p k _ hP rfl) (fun k q' => blk0_1 V c t k q') (fun q' => blk0_2 V c t q')

/-- An index is in point t's block iff each coordinate is in the block's range. -/
theorem mem_blk0 (t : Fin cfg0.N) (i : S50000x768.Idx) :
    i ∈ ((cfg0.win 3).blk t).view.set ↔ ∀ a : Fin 2, win0_3.index t a * S1000x768.size a ≤ (i a).val ∧ (i a).val < win0_3.index t a * S1000x768.size a + S1000x768.size a := by
  show i ∈ ((View.whole main_v9).slice (win0_3.rect t)).set ↔ _
  rw [View.set_slice_whole, Rect.mem_set_unit]
  exact Iff.rfl

/-- The fifty blocks tile the array: row r lies in block r / 1000. -/
theorem cover0 (i : S50000x768.Idx) : ∃ t : Fin cfg0.N, (cfg0.win 3).flush t = true ∧ i ∈ ((cfg0.win 3).blk t).view.set := by
  have hi0 : (i 0).val < 50000 := (i 0).isLt
  have hi1 : (i 1).val < 768 := (i 1).isLt
  have hN : cfg0.N = 50 := N_0
  refine ⟨⟨(i 0).val / 1000, by rw [hN]; omega⟩, flush0_3 _, ?_⟩
  rw [mem_blk0]
  obtain ⟨-, -, -, -, -, -, e6, e7⟩ := idx0 ⟨(i 0).val / 1000, by rw [hN]; omega⟩
  intro a
  match a with
  | ⟨0, _⟩ => show win0_3.index _ 0 * 1000 ≤ (i 0).val ∧ (i 0).val < win0_3.index _ 0 * 1000 + 1000; rw [e6]; show (i 0).val / 1000 * 1000 ≤ _ ∧ _ < (i 0).val / 1000 * 1000 + 1000; omega
  | ⟨1, _⟩ => show win0_3.index _ 1 * 768 ≤ (i 1).val ∧ (i 1).val < win0_3.index _ 1 * 768 + 768; rw [e7]; omega

/-- The first projection region's output array after the region. -/
theorem final0 (c : Dev nD) : (dat0 V c).arrAt 3 cfg0.N = linG (V c main_arg0) (V c main_arg1) (V c main_v8) :=
  (dat0 V c).arrAt_eq_of_cover 3 _ (fun t _ => flushed0_eq V c t) cover0

/-! ## The second projection region (its row input in the narrow format) -/

/-- The index maps over the grid: the row windows' block at point t is row-block t; the matrix and the row are whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row input's block at point t is rows 1000·t … of the array. -/
theorem blk2_0 (c : Dev nD) (t : Fin cfg2.N) (p : Fin 1000) (q : Fin 768) (i : S50000x768.Idx)
    (h0 : (i 0).val = t.val * 1000 + p.val) (h1 : (i 1).val = q.val) :
    (iblk2 V c 0 t : Vec Ideal S1000x768 .bf16) (ix2 p q) = (V c main_v32 : S50000x768.Idx → EReal) i := by
  obtain ⟨e0, e1, -⟩ := idx2 t
  unfold iblk2
  rw [View.read_apply]
  show V c main_v32 _ = V c main_v32 _
  refine congrArg (V c main_v32) ?_
  funext a
  apply Fin.ext
  match a with
  | ⟨0, _⟩ => show win2_0.index t 0 * 1000 + 1 * p.val = (i 0).val; rw [e0, h0]; omega
  | ⟨1, _⟩ => show win2_0.index t 1 * 768 + 1 * q.val = (i 1).val; rw [e1, h1]; omega

/-- The matrix window's block is the whole matrix. -/
theorem blk2_1 (c : Dev nD) (t : Fin cfg2.N) (k : Fin 768) (q : Fin 768) :
    (iblk2 V c 1 t : Vec Ideal S768x768 .f32) (ix2 k q) = (V c main_arg3 : S768x768.Idx → EReal) (ix2 k q) := by
  obtain ⟨-, -, e0, e1, -⟩ := idx2 t
  unfold iblk2
  rw [View.read_apply]
  show V c main_arg3 _ = V c main_arg3 _
  refine congrArg (V c main_arg3) ?_
  funext a
  apply Fin.ext
  match a with
  | ⟨0, _⟩ => show win2_1.index t 0 * 768 + 1 * k.val = k.val; rw [e0]; omega
  | ⟨1, _⟩ => show win2_1.index t 1 * 768 + 1 * q.val = q.val; rw [e1]; omega

/-- The row window's block is the whole row. -/
theorem blk2_2 (c : Dev nD) (t : Fin cfg2.N) (q : Fin 768) :
    (iblk2 V c 2 t : Vec Ideal S1x768 .f32) (ix2 (0 : Fin 1) q) = (V c main_v33 : S1x768.Idx → EReal) (ix2 (0 : Fin 1) q) := by
  obtain ⟨-, -, -, -, e0, e1, -⟩ := idx2 t
  unfold iblk2
  rw [View.read_apply]
  show V c main_v33 _ = V c main_v33 _
  refine congrArg (V c main_v33) ?_
  funext a
  apply Fin.ext
  match a with
  | ⟨0, _⟩ => show win2_2.index t 0 * 1 + 1 * 0 = 0; rw [e0]
  | ⟨1, _⟩ => show win2_2.index t 1 * 768 + 1 * q.val = q.val; rw [e1]; omega

/-- What point t writes back is block t of the whole-array function. -/
theorem flushed2_eq (c : Dev nD) (t : Fin cfg2.N) :
    (dat2 V c).flushed 3 t = ((cfg2.win 3).blk t).view.read (Elt Ideal) (linG (V c main_v32) (V c main_arg3) (V c main_v33)) := by
  show (cfg2.win 3).cut (grid2.coords t) ((dat2 V c).after 3 t) = _
  rw [after2_3]
  unfold out2_3
  rw [View.canon_unit_zero hz]
  simp only [View.ld_unit_zero (S := S1000x768) hz, View.ld_unit_zero (S := S768x768) hz, View.ld_unit_zero (S := S1x768) hz]
  obtain ⟨-, -, -, -, -, -, e6, e7⟩ := idx2 t
  funext j
  obtain ⟨p, q, rfl⟩ : ∃ (p : Fin 1000) (q : Fin 768), j = ix2 p q := ⟨j 0, j 1, eq_ix2 j⟩
  refine (pay2_apply _ _ _ p q).trans ?_
  show _ = rowLin (V c main_v32) (V c main_arg3) (V c main_v33) (((cfg2.win 3).blk t).view.emb (ix2 p q) 0) (((cfg2.win 3).blk t).view.emb (ix2 p q) 1)
  have hP : ((((cfg2.win 3).blk t).view.emb (ix2 p q) 0 : Fin 50000)).val = t.val * 1000 + p.val := by
    show win2_3.index t 0 * 1000 + 1 * p.val = _; rw [e6]; omega
  refine rowLin_block _ _ _ _ _ _ p q _ _ (Fin.ext (by show win2_3.index t 1 * 768 + 1 * q.val = q.val; rw [e7]; omega))
    (fun k => blk2_0 V c t p k _ hP rfl) (fun k q' => blk2_1 V c t k q') (fun q' => blk2_2 V c t q')

/-- An index is in point t's block iff each coordinate is in the block's range. -/
theorem mem_blk2 (t : Fin cfg2.N) (i : S50000x768.Idx) :
    i ∈ ((cfg2.win 3).blk t).view.set ↔ ∀ a : Fin 2, win2_3.index t a * S1000x768.size a ≤ (i a).val ∧ (i a).val < win2_3.index t a * S1000x768.size a + S1000x768.size a := by
  show i ∈ ((View.whole main_v34).slice (win2_3.rect t)).set ↔ _
  rw [View.set_slice_whole, Rect.mem_set_unit]
  exact Iff.rfl

/-- The fifty blocks tile the array: row r lies in block r / 1000. -/
theorem cover2 (i : S50000x768.Idx) : ∃ t : Fin cfg2.N, (cfg2.win 3).flush t = true ∧ i ∈ ((cfg2.win 3).blk t).view.set := by
  have hi0 : (i 0).val < 50000 := (i 0).isLt
  have hi1 : (i 1).val < 768 := (i 1).isLt
  have hN : cfg2.N = 50 := N_2
  refine ⟨⟨(i 0).val / 1000, by rw [hN]; omega⟩, flush2_3 _, ?_⟩
  rw [mem_blk2]
  obtain ⟨-, -, -, -, -, -, e6, e7⟩ := idx2 ⟨(i 0).val / 1000, by rw [hN]; omega⟩
  intro a
  match a with
  | ⟨0, _⟩ => show win2_3.index _ 0 * 1000 ≤ (i 0).val ∧ (i 0).val < win2_3.index _ 0 * 1000 + 1000; rw [e6]; show (i 0).val / 1000 * 1000 ≤ _ ∧ _ < (i 0).val / 1000 * 1000 + 1000; omega
  | ⟨1, _⟩ => show win2_3.index _ 1 * 768 ≤ (i 1).val ∧ (i 1).val < win2_3.index _ 1 * 768 + 768; rw [e7]; omega

/-- The second projection region's output array after the region. -/
theorem final2 (c : Dev nD) : (dat2 V c).arrAt 3 cfg2.N = linG (V c main_v32) (V c main_arg3) (V c main_v33) :=
  (dat2 V c).arrAt_eq_of_cover 3 _ (fun t _ => flushed2_eq V c t) cover2

end Regions

end Cert.KernelIdeal.Lin

end
-- ==== Proof.LibRowOps.lean ====
/-
  Row-wise operations of a matrix read at an entry, generic in the extents a (rows) and b (columns).

  * A vector [a] cast to a column [a, 1] reads, at (p, u), the vector's entry p.
  * A column [a, 1] broadcast to [a, b] reads, at (p, q), the column's entry p.
  * The sum of an [a, b] matrix along its second axis (a lane reduction from the zero accumulator), over the
    extended reals, is at p the sum over k of the entries (p, k).
-/
import Idealize.ShloMosaic.PureOps.Ideal.Laws
import Idealize.ShloMosaic.Lib.Pipeline.Value
import Idealize.ShloMosaic.Lib.ValueIdx

noncomputable section

namespace LibRowOps

open Idealize.ShloMosaic Idealize.ShloMosaic.ValueIdx

variable {α : Type}

/-- An [a] array cast to [a, 1] reads, at (p, u), the operand at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum along the second axis from the zero accumulator, at row p. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext ax
  apply Fin.ext
  match ax with
  | ⟨0, _⟩ => rfl
  | ⟨1, _⟩ => rfl

end LibRowOps

end
-- ==== Proof.Spec.lean ====
/-
  The scalar laws, on the extended reals, that join the two programs of a message-passing layer with a row
  normalisation, and the two float constants the laws meet.

  (1) Scaling by a stored reciprocal is dividing: for a divisor c ≠ 0, a · (1 / c) = a / c, at the infinities too,
      because a quotient off zero is the product with the inverse and 1 · c⁻¹ = c⁻¹.  The divisors met here are
      max(count, 1) ≥ 1, never zero.
  (2) Normalising by a clipped reciprocal square root is dividing by the clipped norm: for every extended real s
      (the sum of squares of a row), every x, and a real d > 0,
          x · rsqrt(max(s, d²)) = x / max(d, √s).
      Below d² (and at the junk values of a negative s) both sides are x / d; from d² upwards the square root is
      monotone, so max(d, √s) = √(max(s, d²)); at +∞ both sides are x · 0.
  The constant d is the f32 word 0x2B8CBCCC, the dyadic 2305843 / 2^61, and d² = 5316911940649 / 2^122.
-/
import Idealize.ShloMosaic.PureOps.Ideal.Laws

noncomputable section

namespace Cert.Spec

open Idealize.ShloMosaic

/-- Scaling by the reciprocal of a nonzero divisor is dividing by it. -/
theorem mul_one_div {a c : EReal} (hc : c ≠ 0) : a * Ideal.div 1 c = Ideal.div a c := by
  unfold Ideal.div
  rw [if_neg hc, if_neg hc, one_mul]

/-- A count clipped below by one is not zero. -/
theorem max_one_ne_zero (x : EReal) : max x 1 ≠ 0 :=
  ne_of_gt (lt_of_lt_of_le zero_lt_one (le_max_right x 1))

theorem coe_max (r s : ℝ) : max (r : EReal) (s : EReal) = ((max r s : ℝ) : EReal) := by
  rcases le_total r s with h | h
  · rw [max_eq_right h, max_eq_right (EReal.coe_le_coe_iff.2 h)]
  · rw [max_eq_left h, max_eq_left (EReal.coe_le_coe_iff.2 h)]

/-- The reciprocal square root of a positive real. -/
theorem rsqrt_pos {r : ℝ} (hr : 0 < r) : Ideal.rsqrt (r : EReal) = (((Real.sqrt r)⁻¹ : ℝ) : EReal) := by
  rw [Ideal.rsqrt_coe, if_neg (not_lt.2 hr.le), if_neg (ne_of_gt hr)]

/-- Dividing by a positive real is the product with its inverse. -/
theorem div_pos_real (x : EReal) {s : ℝ} (hs : 0 < s) : Ideal.div x (s : EReal) = x * ((s⁻¹ : ℝ) : EReal) := by
  rw [Ideal.div_coe (ne_of_gt hs), one_div]

/-- Law (2): the clipped reciprocal square root against the clipped norm. -/
theorem norm_law (x s : EReal) {d : ℝ} (hd : 0 < d) :
    x * Ideal.rsqrt (max s ((d * d : ℝ) : EReal)) = Ideal.div x (max (d : EReal) (Ideal.sqrt s)) := by
  have hdd : 0 < d * d := mul_pos hd hd
  have hsq : Real.sqrt (d * d) = d := Real.sqrt_mul_self hd.le
  induction s using EReal.rec with
  | bot =>
    rw [max_eq_right bot_le, rsqrt_pos hdd, hsq, Ideal.sqrt_bot, max_eq_left bot_le, div_pos_real x hd]
  | top =>
    rw [max_eq_left le_top, Ideal.rsqrt_top, mul_zero, Ideal.sqrt_top, max_eq_right le_top]
    unfold Ideal.div
    rw [if_neg (by simp), EReal.inv_top, mul_zero]
  | coe r =>
    rw [coe_max]
    have hm : 0 < max r (d * d) := lt_of_lt_of_le hdd (le_max_right _ _)
    rw [rsqrt_pos hm, Ideal.sqrt_coe]
    by_cases hr : r < 0
    · rw [if_pos hr, max_eq_left bot_le, div_pos_real x hd, max_eq_right (le_trans hr.le hdd.le), hsq]
    · rw [if_neg hr, coe_max]
      have hr0 : 0 ≤ r := not_lt.1 hr
      have hmax : max d (Real.sqrt r) = Real.sqrt (max r (d * d)) := by
        rcases le_total r (d * d) with h | h
        · rw [max_eq_right h, hsq, max_eq_left]
          calc Real.sqrt r ≤ Real.sqrt (d * d) := Real.sqrt_le_sqrt h
            _ = d := hsq
        · rw [max_eq_left h, max_eq_right]
          calc d = Real.sqrt (d * d) := hsq.symm
            _ ≤ Real.sqrt r := Real.sqrt_le_sqrt h
      have hpos : 0 < max d (Real.sqrt r) := lt_of_lt_of_le hd (le_max_left _ _)
      rw [div_pos_real x hpos, hmax]

/-- The reference's clip constant: the f32 word 0x2B8CBCCC is the dyadic 2305843 / 2^61. -/
theorem ofBits_clip : Ideal.ofBits .f32 0x2B8CBCCC#32 = ((2305843 / 2305843009213693952 : ℝ) : EReal) := by
  simp [Ideal.ofBits, Ideal.ieee, -EReal.coe_mul]; norm_num

/-- Its square is the value the kernel's clip constant is named. -/
theorem clip_sq : ((5316911940649 / 5316911983139663491615228241121378304 : ℝ))
    = (2305843 / 2305843009213693952 : ℝ) * (2305843 / 2305843009213693952 : ℝ) := by norm_num

theorem clip_pos : (0 : ℝ) < 2305843 / 2305843009213693952 := by norm_num

/-- The f32 word of 1.0 denotes 1. -/
theorem ofBits_one : Ideal.ofBits .f32 0x3F800000#32 = 1 := by
  simp [Ideal.ofBits, Ideal.ieee, -EReal.coe_mul]; norm_num

/-- The f32 zero word denotes 0. -/
theorem ofBits_zero : Ideal.ofBits .f32 0x00000000#32 = 0 := by
  simp [Ideal.ofBits, Ideal.ieee]

end Cert.Spec

end
-- ==== Proof.RegionNorm.lean ====
/-
  The two normalising regions, each read as one function of its two input arrays.

  A normalising region takes two [50000, 768] arrays X and Y, 1000 rows per grid point.  At a point it forms
  Z = X + Y on the point's rows, the sum of squares s(p) = Σ_k Z(p,k)² of every row, and stores
  Z(p,q) · rsqrt(max(s(p), ε²)) — in the first of the two regions clipped below at 0.  A row's value depends only on
  that row, and a point's block holds whole rows, so block t of the result is rows 1000·t … 1000·t + 999 of the
  whole-array function "row p, column q ↦ Z(p,q) · rsqrt(max(s(p), ε²))", and the fifty blocks tile the array.
  ε² is the value the kernel's clip constant is named.
-/
import proofs.«144261_j48498770707323_2_alg».proof.Proof.Gen.KernelIdeal.Frame
import proofs.«144261_j48498770707323_2_alg».proof.Proof.LibRowOps
import proofs.«144261_j48498770707323_2_alg».proof.Proof.Spec
import Idealize.ShloMosaic.Lib.Pipeline.Value
import Idealize.ShloMosaic.Lib.ValueIdx
import Idealize.ShloMosaic.PureOps.IdealRules

set_option maxRecDepth 16384

noncomputable section

namespace Cert.KernelIdeal.Norm

open Cert.KernelIdeal Cert.KernelIdeal.Gen
open Idealize.ShloMosaic Idealize.ShloMosaic.ValueIdx Idealize.ShloMosaic.TcCoe Idealize.SL.Sem
open Idealize.ShloMosaic.Pipeline (Dat)

/-- ε², the value the clip constant is named. -/
def epsq : EReal := ((5316911940649 / 5316911983139663491615228241121378304 : ℝ) : EReal)

theorem named_epsq : Named.named (F := Ideal) κ "eps_sq" (φ := .f32) 0x179ABE15#32 = epsq :=
  IdealRules.named_const.ideal_named_scalar _ _ _ _ rfl

/-- Row p, column q of the normalised sum of two arrays of n rows. -/
def rowNorm {n : Nat} (a0 a1 : (⟨2, ![n, 768]⟩ : Shape).Idx → EReal) (p : Fin n) (q : Fin 768) : EReal :=
  (a0 (ix2 p q) + a1 (ix2 p q))
    * Ideal.rsqrt (max (∑ k : Fin 768, (a0 (ix2 p k) + a1 (ix2 p k)) * (a0 (ix2 p k) + a1 (ix2 p k))) epsq)

/-- The whole-array function of the second normalising region. -/
def normG (a0 a1 : S50000x768.Idx → EReal) : S50000x768.Idx → EReal :=
  fun i => rowNorm a0 a1 (i 0) (i 1)

/-- The whole-array function of the first normalising region: the same, clipped below at 0. -/
def normReluG (a0 a1 : S50000x768.Idx → EReal) : S50000x768.Idx → EReal :=
  fun i => max (rowNorm a0 a1 (i 0) (i 1)) 0

theorem hz : (![0, 0] : Fin 2 → Nat) = fun _ => 0 := funext fun a => by fin_cases a <;> rfl

/-- The payload of the first normalising region at an entry of the block. -/
theorem pay1_apply (x0 x1 : Vec Ideal S1000x768 .f32) (p : Fin 1000) (q : Fin 768) :
    k1_pay1 (F := Ideal) x0 x1 (ix2 p q) = max (rowNorm x0 x1 p q) 0 := by
  unfold k1_pay1
  simp only [shapeCast_self]
  show max ((x0 (ix2 p q) + x1 (ix2 p q)) * (broadcastTo S1000x768 _ broadcasts_S1000x1_S1000x768 (ix2 p q))) (Ideal.ofBits .f32 0#32) = _
  rw [LibRowOps.broadcastTo_a1_ab_apply, Spec.ofBits_zero]
  show max (_ * Ideal.rsqrt (max (shapeCast S1000x1 _ shapeCasts_S1000_S1000x1 (ix2 p (0 : Fin 1))) (Named.named (F := Ideal) κ "eps_sq" (φ := .f32) 0x179ABE15#32))) 0 = _
  rw [LibRowOps.shapeCast_a_a1_apply, LibRowOps.rowSum_apply, named_epsq]
  rfl

/-- The payload of the second normalising region at an entry of the block. -/
theorem pay3_apply (x0 x1 : Vec Ideal S1000x768 .f32) (p : Fin 1000) (q : Fin 768) :
    k3_pay1 (F := Ideal) x0 x1 (ix2 p q) = rowNorm x0 x1 p q := by
  unfold k3_pay1
  simp only [shapeCast_self]
  show (x0 (ix2 p q) + x1 (ix2 p q)) * (broadcastTo S1000x768 _ broadcasts_S1000x1_S1000x768 (ix2 p q)) = _
  rw [LibRowOps.broadcastTo_a1_ab_apply]
  show _ * Ideal.rsqrt (max (shapeCast S1000x1 _ shapeCasts_S1000_S1000x1 (ix2 p (0 : Fin 1))) (Named.named (F := Ideal) κ "eps_sq" (φ := .f32) 0x179ABE15#32)) = _
  rw [LibRowOps.shapeCast_a_a1_apply, LibRowOps.rowSum_apply, named_epsq]
  rfl

/-- A row of a block normalises as the row of the arrays it was cut from. -/
theorem rowNorm_block {n : Nat} (x0 x1 : (⟨2, ![1000, 768]⟩ : Shape).Idx → EReal)
    (A0 A1 : (⟨2, ![n, 768]⟩ : Shape).Idx → EReal) (p : Fin 1000) (q : Fin 768) (P : Fin n) (Q : Fin 768) (hQ : Q = q)
    (h0 : ∀ k, x0 (ix2 p k) = A0 (ix2 P k)) (h1 : ∀ k, x1 (ix2 p k) = A1 (ix2 P k)) :
    rowNorm x0 x1 p q = rowNorm A0 A1 P Q := by
  subst hQ
  unfold rowNorm
  simp only [h0, h1]

section Regions
variable (V : (c : Dev nD) → (b : Ref sig .tc) → Buf (Elt Ideal) ((c : Thread nD τ).loc b))

/-! ## The first normalising region (with the clip at 0) -/

/-- The index maps over the grid: every window's block at point t starts at row-block t, column-block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The first input's block at point t is rows 1000·t … of the first array. -/
theorem blk1_0 (c : Dev nD) (t : Fin cfg1.N) (p : Fin 1000) (q : Fin 768) (i : S50000x768.Idx)
    (h0 : (i 0).val = t.val * 1000 + p.val) (h1 : (i 1).val = q.val) :
    (iblk1 V c 0 t : Vec Ideal S1000x768 .f32) (ix2 p q) = (V c main_v9 : S50000x768.Idx → EReal) i := by
  obtain ⟨e0, e1, -⟩ := idx1 t
  unfold iblk1
  rw [View.read_apply]
  show V c main_v9 _ = V c main_v9 _
  refine congrArg (V c main_v9) ?_
  funext a
  apply Fin.ext
  match a with
  | ⟨0, _⟩ => show win1_0.index t 0 * 1000 + 1 * p.val = (i 0).val; rw [e0, h0]; omega
  | ⟨1, _⟩ => show win1_0.index t 1 * 768 + 1 * q.val = (i 1).val; rw [e1, h1]; omega

/-- The second input's block at point t is rows 1000·t … of the second array. -/
theorem blk1_1 (c : Dev nD) (t : Fin cfg1.N) (p : Fin 1000) (q : Fin 768) (i : S50000x768.Idx)
    (h0 : (i 0).val = t.val * 1000 + p.val) (h1 : (i 1).val = q.val) :
    (iblk1 V c 1 t : Vec Ideal S1000x768 .f32) (ix2 p q) = (V c main_v31 : S50000x768.Idx → EReal) i := by
  obtain ⟨-, -, e0, e1, -⟩ := idx1 t
  unfold iblk1
  rw [View.read_apply]
  show V c main_v31 _ = V c main_v31 _
  refine congrArg (V c main_v31) ?_
  funext a
  apply Fin.ext
  match a with
  | ⟨0, _⟩ => show win1_1.index t 0 * 1000 + 1 * p.val = (i 0).val; rw [e0, h0]; omega
  | ⟨1, _⟩ => show win1_1.index t 1 * 768 + 1 * q.val = (i 1).val; rw [e1, h1]; omega

/-- What point t writes back is block t of the whole-array function. -/
theorem flushed1_eq (c : Dev nD) (t : Fin cfg1.N) :
    (dat1 V c).flushed 2 t = ((cfg1.win 2).blk t).view.read (Elt Ideal) (normReluG (V c main_v9) (V c main_v31)) := by
  show (cfg1.win 2).cut (grid1.coords t) ((dat1 V c).after 2 t) = _
  rw [after1_2]
  unfold out1_2
  rw [View.canon_unit_zero hz]
  simp only [View.ld_unit_zero (S := S1000x768) hz]
  obtain ⟨-, -, -, -, e4, e5⟩ := idx1 t
  funext j
  obtain ⟨p, q, rfl⟩ : ∃ (p : Fin 1000) (q : Fin 768), j = ix2 p q := ⟨j 0, j 1, eq_ix2 j⟩
  refine (pay1_apply _ _ p q).trans ?_
  show max _ 0 = max (rowNorm (V c main_v9) (V c main_v31) (((cfg1.win 2).blk t).view.emb (ix2 p q) 0) (((cfg1.win 2).blk t).view.emb (ix2 p q) 1)) 0
  refine congrArg (fun z => max z (0 : EReal)) ?_
  have hP : ((((cfg1.win 2).blk t).view.emb (ix2 p q) 0 : Fin 50000)).val = t.val * 1000 + p.val := by
    show win1_2.index t 0 * 1000 + 1 * p.val = _; rw [e4]; omega
  refine rowNorm_block _ _ _ _ p q _ _ (Fin.ext (by show win1_2.index t 1 * 768 + 1 * q.val = q.val; rw [e5]; omega))
    (fun k => blk1_0 V c t p k _ hP rfl) (fun k => blk1_1 V c t p k _ hP rfl)

/-- An index is in point t's block iff each coordinate is in the block's range. -/
theorem mem_blk1 (t : Fin cfg1.N) (i : S50000x768.Idx) :
    i ∈ ((cfg1.win 2).blk t).view.set ↔ ∀ a : Fin 2, win1_2.index t a * S1000x768.size a ≤ (i a).val ∧ (i a).val < win1_2.index t a * S1000x768.size a + S1000x768.size a := by
  show i ∈ ((View.whole main_v32).slice (win1_2.rect t)).set ↔ _
  rw [View.set_slice_whole, Rect.mem_set_unit]
  exact Iff.rfl

/-- The fifty blocks tile the array: row r lies in block r / 1000. -/
theorem cover1 (i : S50000x768.Idx) : ∃ t : Fin cfg1.N, (cfg1.win 2).flush t = true ∧ i ∈ ((cfg1.win 2).blk t).view.set := by
  have hi0 : (i 0).val < 50000 := (i 0).isLt
  have hi1 : (i 1).val < 768 := (i 1).isLt
  have hN : cfg1.N = 50 := N_1
  refine ⟨⟨(i 0).val / 1000, by rw [hN]; omega⟩, flush1_2 _, ?_⟩
  rw [mem_blk1]
  obtain ⟨-, -, -, -, e4, e5⟩ := idx1 ⟨(i 0).val / 1000, by rw [hN]; omega⟩
  intro a
  match a with
  | ⟨0, _⟩ => show win1_2.index _ 0 * 1000 ≤ (i 0).val ∧ (i 0).val < win1_2.index _ 0 * 1000 + 1000; rw [e4]; show (i 0).val / 1000 * 1000 ≤ _ ∧ _ < (i 0).val / 1000 * 1000 + 1000; omega
  | ⟨1, _⟩ => show win1_2.index _ 1 * 768 ≤ (i 1).val ∧ (i 1).val < win1_2.index _ 1 * 768 + 768; rw [e5]; omega

/-- The first normalising region's output array after the region. -/
theorem final1 (c : Dev nD) : (dat1 V c).arrAt 2 cfg1.N = normReluG (V c main_v9) (V c main_v31) :=
  (dat1 V c).arrAt_eq_of_cover 2 _ (fun t _ => flushed1_eq V c t) cover1

/-! ## The second normalising region (no clip at 0) -/

/-- The index maps over the grid: every window's block at point t starts at row-block t, column-block 0. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The first input's block at point t is rows 1000·t … of the first array. -/
theorem blk3_0 (c : Dev nD) (t : Fin cfg3.N) (p : Fin 1000) (q : Fin 768) (i : S50000x768.Idx)
    (h0 : (i 0).val = t.val * 1000 + p.val) (h1 : (i 1).val = q.val) :
    (iblk3 V c 0 t : Vec Ideal S1000x768 .f32) (ix2 p q) = (V c main_v34 : S50000x768.Idx → EReal) i := by
  obtain ⟨e0, e1, -⟩ := idx3 t
  unfold iblk3
  rw [View.read_apply]
  show V c main_v34 _ = V c main_v34 _
  refine congrArg (V c main_v34) ?_
  funext a
  apply Fin.ext
  match a with
  | ⟨0, _⟩ => show win3_0.index t 0 * 1000 + 1 * p.val = (i 0).val; rw [e0, h0]; omega
  | ⟨1, _⟩ => show win3_0.index t 1 * 768 + 1 * q.val = (i 1).val; rw [e1, h1]; omega

/-- The second input's block at point t is rows 1000·t … of the second array. -/
theorem blk3_1 (c : Dev nD) (t : Fin cfg3.N) (p : Fin 1000) (q : Fin 768) (i : S50000x768.Idx)
    (h0 : (i 0).val = t.val * 1000 + p.val) (h1 : (i 1).val = q.val) :
    (iblk3 V c 1 t : Vec Ideal S1000x768 .f32) (ix2 p q) = (V c main_v56 : S50000x768.Idx → EReal) i := by
  obtain ⟨-, -, e0, e1, -⟩ := idx3 t
  unfold iblk3
  rw [View.read_apply]
  show V c main_v56 _ = V c main_v56 _
  refine congrArg (V c main_v56) ?_
  funext a
  apply Fin.ext
  match a with
  | ⟨0, _⟩ => show win3_1.index t 0 * 1000 + 1 * p.val = (i 0).val; rw [e0, h0]; omega
  | ⟨1, _⟩ => show win3_1.index t 1 * 768 + 1 * q.val = (i 1).val; rw [e1, h1]; omega

/-- What point t writes back is block t of the whole-array function. -/
theorem flushed3_eq (c : Dev nD) (t : Fin cfg3.N) :
    (dat3 V c).flushed 2 t = ((cfg3.win 2).blk t).view.read (Elt Ideal) (normG (V c main_v34) (V c main_v56)) := by
  show (cfg3.win 2).cut (grid3.coords t) ((dat3 V c).after 2 t) = _
  rw [after3_2]
  unfold out3_2
  rw [View.canon_unit_zero hz]
  simp only [View.ld_unit_zero (S := S1000x768) hz]
  obtain ⟨-, -, -, -, e4, e5⟩ := idx3 t
  funext j
  obtain ⟨p, q, rfl⟩ : ∃ (p : Fin 1000) (q : Fin 768), j = ix2 p q := ⟨j 0, j 1, eq_ix2 j⟩
  refine (pay3_apply _ _ p q).trans ?_
  show _ = rowNorm (V c main_v34) (V c main_v56) (((cfg3.win 2).blk t).view.emb (ix2 p q) 0) (((cfg3.win 2).blk t).view.emb (ix2 p q) 1)
  have hP : ((((cfg3.win 2).blk t).view.emb (ix2 p q) 0 : Fin 50000)).val = t.val * 1000 + p.val := by
    show win3_2.index t 0 * 1000 + 1 * p.val = _; rw [e4]; omega
  refine rowNorm_block _ _ _ _ p q _ _ (Fin.ext (by show win3_2.index t 1 * 768 + 1 * q.val = q.val; rw [e5]; omega))
    (fun k => blk3_0 V c t p k _ hP rfl) (fun k => blk3_1 V c t p k _ hP rfl)

/-- An index is in point t's block iff each coordinate is in the block's range. -/
theorem mem_blk3 (t : Fin cfg3.N) (i : S50000x768.Idx) :
    i ∈ ((cfg3.win 2).blk t).view.set ↔ ∀ a : Fin 2, win3_2.index t a * S1000x768.size a ≤ (i a).val ∧ (i a).val < win3_2.index t a * S1000x768.size a + S1000x768.size a := by
  show i ∈ ((View.whole main_v57).slice (win3_2.rect t)).set ↔ _
  rw [View.set_slice_whole, Rect.mem_set_unit]
  exact Iff.rfl

/-- The fifty blocks tile the array: row r lies in block r / 1000. -/
theorem cover3 (i : S50000x768.Idx) : ∃ t : Fin cfg3.N, (cfg3.win 2).flush t = true ∧ i ∈ ((cfg3.win 2).blk t).view.set := by
  have hi0 : (i 0).val < 50000 := (i 0).isLt
  have hi1 : (i 1).val < 768 := (i 1).isLt
  have hN : cfg3.N = 50 := N_3
  refine ⟨⟨(i 0).val / 1000, by rw [hN]; omega⟩, flush3_2 _, ?_⟩
  rw [mem_blk3]
  obtain ⟨-, -, -, -, e4, e5⟩ := idx3 ⟨(i 0).val / 1000, by rw [hN]; omega⟩
  intro a
  match a with
  | ⟨0, _⟩ => show win3_2.index _ 0 * 1000 ≤ (i 0).val ∧ (i 0).val < win3_2.index _ 0 * 1000 + 1000; rw [e4]; show (i 0).val / 1000 * 1000 ≤ _ ∧ _ < (i 0).val / 1000 * 1000 + 1000; omega
  | ⟨1, _⟩ => show win3_2.index _ 1 * 768 ≤ (i 1).val ∧ (i 1).val < win3_2.index _ 1 * 768 + 768; rw [e5]; omega

/-- The second normalising region's output array after the region. -/
theorem final3 (c : Dev nD) : (dat3 V c).arrAt 2 cfg3.N = normG (V c main_v34) (V c main_v56) :=
  (dat3 V c).arrAt_eq_of_cover 2 _ (fun t _ => flushed3_eq V c t) cover3

end Regions

end Cert.KernelIdeal.Norm

end
-- ==== Proof.Stages.lean ====
/-
  The host side of a message-passing layer as functions of arrays, in the kernel program's own operations.

  invCount E: for every hyperedge e, 1 / max(#{incidences j : E_j = e}, 1) — the count is a scatter-add of ones into
  zeros, clipped below at 1, inverted.
  aggregate X V E r: gather the rows X[V_j] (an index below 0 wraps by the array's length), scatter-add them by E into
  the [8000, 768] zero array, scale edge e's row by r(e), gather the scaled rows back by E and scatter-add them by V
  into the [50000, 768] zero array.
-/
import proofs.«144261_j48498770707323_2_alg».proof.Proof.Gen.KernelIdeal

noncomputable section

namespace Cert.KernelIdeal.Stages

open Cert.KernelIdeal Cert.KernelIdeal.Facts₀ Cert.KernelIdeal.Facts Idealize.ShloMosaic

/-- An index list with the negative entries wrapped by the length n of the axis they index. -/
def wrapIdx (n : BitVec 32) (I : IVec S200000 32) : IVec S200000x1 32 :=
  broadcastInDim S200000x1 ![0] bcast_S200000_S200000x1_0
    (select (cmpi .slt I (broadcastInDim S200000 ![] bcast_S_S200000 (constantI S_ 32 0#32)))
      (addi I (broadcastInDim S200000 ![] bcast_S_S200000 (constantI S_ 32 n))) I)

/-- The number of incidences of every hyperedge. -/
def count (E : IVec S200000 32) : FVec Ideal S8000x1 .f32 :=
  Host.scatterAdd scatter_S8000x1_S200000x1_S200000x1_1_0_0_1
    (broadcastInDim S8000x1 ![] bcast_S_S8000x1 (constant S_ .f32 0x00000000#32))
    (broadcastInDim S200000x1 ![0] bcast_S200000_S200000x1_0 E)
    (broadcastInDim S200000x1 ![] bcast_S_S200000x1 (constant S_ .f32 0x3F800000#32))

/-- The count clipped below at one. -/
def clippedCount (E : IVec S200000 32) : FVec Ideal S8000x1 .f32 :=
  maximumf (count E) (broadcastInDim S8000x1 ![] bcast_S_S8000x1 (constant S_ .f32 0x3F800000#32))

/-- The reciprocal of the clipped count. -/
def invCount (E : IVec S200000 32) : FVec Ideal S8000x1 .f32 :=
  Host.divf (broadcastInDim S8000x1 ![] bcast_S_S8000x1 (constant S_ .f32 0x3F800000#32)) (clippedCount E)

/-- The per-hyperedge sums of the gathered rows. -/
def edgeSum (X : FVec Ideal S50000x768 .f32) (V E : IVec S200000 32) : FVec Ideal S8000x768 .f32 :=
  Host.scatterAdd scatter_S8000x768_S200000x1_S200000x768_1_0_0_1
    (broadcastInDim S8000x768 ![] bcast_S_S8000x768 (constant S_ .f32 0x00000000#32))
    (broadcastInDim S200000x1 ![0] bcast_S200000_S200000x1_0 E)
    (Host.gather gather_S50000x768_S200000x1_S200000x768_1_0_n_n_0_1_1768 X (wrapIdx 50000#32 V))

/-- From the per-hyperedge rows back to the vertices: gather by E, scatter-add by V. -/
def spread (Xe : FVec Ideal S8000x768 .f32) (V E : IVec S200000 32) : FVec Ideal S50000x768 .f32 :=
  Host.scatterAdd scatter_S50000x768_S200000x1_S200000x768_1_0_0_1
    (broadcastInDim S50000x768 ![] bcast_S_S50000x768 (constant S_ .f32 0x00000000#32))
    (broadcastInDim S200000x1 ![0] bcast_S200000_S200000x1_0 V)
    (Host.gather gather_S8000x768_S200000x1_S200000x768_1_0_n_n_0_1_1768 Xe (wrapIdx 8000#32 E))

/-- The kernel program's aggregate: the per-hyperedge sums scaled by a stored factor per hyperedge, spread back. -/
def aggregate (X : FVec Ideal S50000x768 .f32) (V E : IVec S200000 32) (r : FVec Ideal S8000x1 .f32) :
    FVec Ideal S50000x768 .f32 :=
  spread (mulf (edgeSum X V E) (broadcastInDim S8000x768 ![0, 1] bcast_S8000x1_S8000x768_0_1 r)) V E

/-- The bias vector as a one-row matrix. -/
def biasRow (b : FVec Ideal S768 .f32) : FVec Ideal S1x768 .f32 := shapeCast S1x768 b shapeCasts_S768_S1x768

end Cert.KernelIdeal.Stages

end
-- ==== Proof.KValue.lean ====
/-
  The kernel program's result as one function of its seven arguments.

  The buffer contents at the program's boundaries are a fold from the launch memory: a host stretch applies its
  operations, a region replaces its output array by what its write-backs leave and keeps everything else.  Read back
  from the result: the second normalising region leaves normG of the second projection and of its aggregate; the
  second projection is linG of the first layer's output, the second weight matrix and the second bias as a row; the
  first layer's output is normReluG of the first projection and of its aggregate; both aggregates use the reciprocal
  clipped counts computed once before the first region.  Every other buffer a stage reads is carried unchanged through
  the stretches and regions between its writer and its reader, because none of them writes it.
-/
import proofs.«144261_j48498770707323_2_alg».proof.Proof.KRun
import proofs.«144261_j48498770707323_2_alg».proof.Proof.RegionLin
import proofs.«144261_j48498770707323_2_alg».proof.Proof.RegionNorm
import proofs.«144261_j48498770707323_2_alg».proof.Proof.Stages
import Idealize.ShloMosaic.Lib.StableHlo.Run

set_option maxRecDepth 16384

noncomputable section

namespace Cert.KernelIdeal.Whole

open Cert.KernelIdeal Cert.KernelIdeal.Gen Cert.KernelIdeal.Stages Cert.KernelIdeal.Lin Cert.KernelIdeal.Norm
open Idealize.ShloMosaic Idealize.ShloMosaic.TcCoe Idealize.SL.Sem Idealize.ShloMosaic.StableHlo

/-- A projection: X·W + b. -/
def proj (X : FVec Ideal S50000x768 .f32) (W : FVec Ideal S768x768 .f32) (b : FVec Ideal S768 .f32) :
    FVec Ideal S50000x768 .f32 := linG X W (biasRow b)

/-- The first layer: projection, aggregate, normalised sum clipped at 0. -/
def layer1 (x : FVec Ideal S50000x768 .f32) (W : FVec Ideal S768x768 .f32) (b : FVec Ideal S768 .f32)
    (V E : IVec S200000 32) : FVec Ideal S50000x768 .f32 :=
  normReluG (proj x W b) (aggregate (proj x W b) V E (invCount E))

/-- The second layer: projection, aggregate, normalised sum. -/
def layer2 (h : FVec Ideal S50000x768 .f32) (W : FVec Ideal S768x768 .f32) (b : FVec Ideal S768 .f32)
    (V E : IVec S200000 32) : FVec Ideal S50000x768 .f32 :=
  normG (proj h W b) (aggregate (proj h W b) V E (invCount E))

/-- The whole program. -/
def total (x : FVec Ideal S50000x768 .f32) (W1 : FVec Ideal S768x768 .f32) (b1 : FVec Ideal S768 .f32)
    (W2 : FVec Ideal S768x768 .f32) (b2 : FVec Ideal S768 .f32) (V E : IVec S200000 32) : FVec Ideal S50000x768 .f32 :=
  layer2 (layer1 x W1 b1 V E) W2 b2 V E

variable (m : (ℓ : Loc nD τ sig) → Buf (Elt Ideal) ℓ) (ρ : Dev nD → PrngReg)

/-- A host stretch leaves a buffer none of its operations writes as it found it. -/
local macro "host_skip" b:term : tactic => `(tactic|
  exact StableHlo.after_of_forall_not_mem (b := Proc.devRef .tc $b) _ _ (List.forall_iff_forall_mem.mp (by
    simp only [hostOps0, hostOps1, hostOps2, hostOps3, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## Before the first region -/

theorem W1_arg0 (c : Dev nD) : W1 m ρ c (Proc.devRef .tc main_arg0) = m ((c : Thread nD τ).loc main_arg0) := by host_skip main_arg0
theorem W1_arg1 (c : Dev nD) : W1 m ρ c (Proc.devRef .tc main_arg1) = m ((c : Thread nD τ).loc main_arg1) := by host_skip main_arg1
theorem W1_arg3 (c : Dev nD) : W1 m ρ c (Proc.devRef .tc main_arg3) = m ((c : Thread nD τ).loc main_arg3) := by host_skip main_arg3
theorem W1_arg4 (c : Dev nD) : W1 m ρ c (Proc.devRef .tc main_arg4) = m ((c : Thread nD τ).loc main_arg4) := by host_skip main_arg4
theorem W1_arg5 (c : Dev nD) : W1 m ρ c (Proc.devRef .tc main_arg5) = m ((c : Thread nD τ).loc main_arg5) := by host_skip main_arg5
theorem W1_arg6 (c : Dev nD) : W1 m ρ c (Proc.devRef .tc main_arg6) = m ((c : Thread nD τ).loc main_arg6) := by host_skip main_arg6

/-- The first bias as a row. -/
theorem W1_v8 (c : Dev nD) : W1 m ρ c (Proc.devRef .tc main_v8) = biasRow (m ((c : Thread nD τ).loc main_arg2)) := by
  show StableHlo.after hostOps0 (W0 m ρ c) (Proc.devRef .tc main_v8) = _
  after_results
  rfl

/-- The reciprocal clipped counts. -/
theorem W1_v7 (c : Dev nD) : W1 m ρ c (Proc.devRef .tc main_v7) = invCount (m ((c : Thread nD τ).loc main_arg6)) := by
  show StableHlo.after hostOps0 (W0 m ρ c) (Proc.devRef .tc main_v7) = _
  after_results
  rfl

/-! ## The first projection region -/

theorem W2_v9 (c : Dev nD) : W2 m ρ c (Proc.devRef .tc main_v9)
    = proj (m ((c : Thread nD τ).loc main_arg0)) (m ((c : Thread nD τ).loc main_arg1)) (m ((c : Thread nD τ).loc main_arg2)) := by
  refine (W2_arr m ρ c 3).trans ((final0 (V1 m ρ) c).trans ?_)
  show linG (W1 m ρ c (Proc.devRef .tc main_arg0)) (W1 m ρ c (Proc.devRef .tc main_arg1)) (W1 m ρ c (Proc.devRef .tc main_v8)) = _
  rw [W1_arg0, W1_arg1, W1_v8]
  rfl

theorem W2_v7 (c : Dev nD) : W2 m ρ c (Proc.devRef .tc main_v7) = invCount (m ((c : Thread nD τ).loc main_arg6)) :=
  (W2_of_ne m ρ c main_v7 (by decide)).trans (W1_v7 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## The first aggregate -/

set_option maxHeartbeats 4000000 in
theorem W3_v31 (c : Dev nD) : W3 m ρ c (Proc.devRef .tc main_v31)
    = aggregate (W2 m ρ c (Proc.devRef .tc main_v9)) (W2 m ρ c (Proc.devRef .tc main_arg5)) (W2 m ρ c (Proc.devRef .tc main_arg6))
        (W2 m ρ c (Proc.devRef .tc main_v7)) := by
  show StableHlo.after hostOps1 (W2 m ρ c) (Proc.devRef .tc main_v31) = _
  after_results_simp
  rfl

theorem W3_v9 (c : Dev nD) : W3 m ρ c (Proc.devRef .tc main_v9) = W2 m ρ c (Proc.devRef .tc main_v9) := by host_skip main_v9
theorem W3_v7 (c : Dev nD) : W3 m ρ c (Proc.devRef .tc main_v7) = W2 m ρ c (Proc.devRef .tc main_v7) := by host_skip main_v7
theorem W3_arg3 (c : Dev nD) : W3 m ρ c (Proc.devRef .tc main_arg3) = W2 m ρ c (Proc.devRef .tc main_arg3) := by host_skip main_arg3
theorem W3_arg4 (c : Dev nD) : W3 m ρ c (Proc.devRef .tc main_arg4) = W2 m ρ c (Proc.devRef .tc main_arg4) := by host_skip main_arg4
theorem W3_arg5 (c : Dev nD) : W3 m ρ c (Proc.devRef .tc main_arg5) = W2 m ρ c (Proc.devRef .tc main_arg5) := by host_skip main_arg5
theorem W3_arg6 (c : Dev nD) : W3 m ρ c (Proc.devRef .tc main_arg6) = W2 m ρ c (Proc.devRef .tc main_arg6) := by host_skip main_arg6

/-! ## The first normalising region: the first layer's output -/

theorem W4_v32 (c : Dev nD) : W4 m ρ c (Proc.devRef .tc main_v32)
    = layer1 (m ((c : Thread nD τ).loc main_arg0)) (m ((c : Thread nD τ).loc main_arg1)) (m ((c : Thread nD τ).loc main_arg2))
        (m ((c : Thread nD τ).loc main_arg5)) (m ((c : Thread nD τ).loc main_arg6)) := by
  refine (W4_arr m ρ c 2).trans ((final1 (V3 m ρ) c).trans ?_)
  show normReluG (W3 m ρ c (Proc.devRef .tc main_v9)) (W3 m ρ c (Proc.devRef .tc main_v31)) = _
  rw [W3_v31, W3_v9, W2_v9, W2_arg5, W2_arg6, W2_v7]
  rfl

theorem W4_v7 (c : Dev nD) : W4 m ρ c (Proc.devRef .tc main_v7) = invCount (m ((c : Thread nD τ).loc main_arg6)) :=
  (W4_of_ne m ρ c main_v7 (by decide)).trans ((W3_v7 m ρ c).trans (W2_v7 m ρ c))
theorem W4_arg3 (c : Dev nD) : W4 m ρ c (Proc.devRef .tc main_arg3) = m ((c : Thread nD τ).loc main_arg3) :=
  (W4_of_ne m ρ c main_arg3 (by decide)).trans ((W3_arg3 m ρ c).trans (W2_arg3 m ρ c))
theorem W4_arg4 (c : Dev nD) : W4 m ρ c (Proc.devRef .tc main_arg4) = m ((c : Thread nD τ).loc main_arg4) :=
  (W4_of_ne m ρ c main_arg4 (by decide)).trans ((W3_arg4 m ρ c).trans (W2_arg4 m ρ c))
theorem W4_arg5 (c : Dev nD) : W4 m ρ c (Proc.devRef .tc main_arg5) = m ((c : Thread nD τ).loc main_arg5) :=
  (W4_of_ne m ρ c main_arg5 (by decide)).trans ((W3_arg5 m ρ c).trans (W2_arg5 m ρ c))
theorem W4_arg6 (c : Dev nD) : W4 m ρ c (Proc.devRef .tc main_arg6) = m ((c : Thread nD τ).loc main_arg6) :=
  (W4_of_ne m ρ c main_arg6 (by decide)).trans ((W3_arg6 m ρ c).trans (W2_arg6 m ρ c))

/-! ## The second bias as a row -/

theorem W5_v33 (c : Dev nD) : W5 m ρ c (Proc.devRef .tc main_v33) = biasRow (W4 m ρ c (Proc.devRef .tc main_arg4)) := by
  show StableHlo.after hostOps2 (W4 m ρ c) (Proc.devRef .tc main_v33) = _
  after_results
  rfl

theorem W5_v32 (c : Dev nD) : W5 m ρ c (Proc.devRef .tc main_v32) = W4 m ρ c (Proc.devRef .tc main_v32) := by host_skip main_v32
theorem W5_v7 (c : Dev nD) : W5 m ρ c (Proc.devRef .tc main_v7) = W4 m ρ c (Proc.devRef .tc main_v7) := by host_skip main_v7
theorem W5_arg3 (c : Dev nD) : W5 m ρ c (Proc.devRef .tc main_arg3) = W4 m ρ c (Proc.devRef .tc main_arg3) := by host_skip main_arg3
theorem W5_arg5 (c : Dev nD) : W5 m ρ c (Proc.devRef .tc main_arg5) = W4 m ρ c (Proc.devRef .tc main_arg5) := by host_skip main_arg5
theorem W5_arg6 (c : Dev nD) : W5 m ρ c (Proc.devRef .tc main_arg6) = W4 m ρ c (Proc.devRef .tc main_arg6) := by host_skip main_arg6

/-! ## The second projection region -/

theorem W6_v34 (c : Dev nD) : W6 m ρ c (Proc.devRef .tc main_v34)
    = proj (W4 m ρ c (Proc.devRef .tc main_v32)) (m ((c : Thread nD τ).loc main_arg3)) (m ((c : Thread nD τ).loc main_arg4)) := by
  refine (W6_arr m ρ c 3).trans ((final2 (V5 m ρ) c).trans ?_)
  show linG (W5 m ρ c (Proc.devRef .tc main_v32)) (W5 m ρ c (Proc.devRef .tc main_arg3)) (W5 m ρ c (Proc.devRef .tc main_v33)) = _
  rw [W5_v32, W5_arg3, W5_v33, W4_arg3, W4_arg4]
  rfl

theorem W6_v7 (c : Dev nD) : W6 m ρ c (Proc.devRef .tc main_v7) = invCount (m ((c : Thread nD τ).loc main_arg6)) :=
  (W6_of_ne m ρ c main_v7 (by decide)).trans ((W5_v7 m ρ c).trans (W4_v7 m ρ c))
theorem W6_arg5 (c : Dev nD) : W6 m ρ c (Proc.devRef .tc main_arg5) = m ((c : Thread nD τ).loc main_arg5) :=
  (W6_of_ne m ρ c main_arg5 (by decide)).trans ((W5_arg5 m ρ c).trans (W4_arg5 m ρ c))
theorem W6_arg6 (c : Dev nD) : W6 m ρ c (Proc.devRef .tc main_arg6) = m ((c : Thread nD τ).loc main_arg6) :=
  (W6_of_ne m ρ c main_arg6 (by decide)).trans ((W5_arg6 m ρ c).trans (W4_arg6 m ρ c))

/-! ## The second aggregate -/

set_option maxHeartbeats 4000000 in
theorem W7_v56 (c : Dev nD) : W7 m ρ c (Proc.devRef .tc main_v56)
    = aggregate (W6 m ρ c (Proc.devRef .tc main_v34)) (W6 m ρ c (Proc.devRef .tc main_arg5)) (W6 m ρ c (Proc.devRef .tc main_arg6))
        (W6 m ρ c (Proc.devRef .tc main_v7)) := by
  show StableHlo.after hostOps3 (W6 m ρ c) (Proc.devRef .tc main_v56) = _
  after_results_simp
  rfl

theorem W7_v34 (c : Dev nD) : W7 m ρ c (Proc.devRef .tc main_v34) = W6 m ρ c (Proc.devRef .tc main_v34) := by host_skip main_v34

/-! ## The second normalising region: the result -/

/-- The result buffer at the last boundary is the whole program's function of the arguments. -/
theorem result_eq (c : Dev nD) : W8 m ρ c (Proc.devRef .tc main_v57)
    = total (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) := by
  refine (W8_arr m ρ c 2).trans ((final3 (V7 m ρ) c).trans ?_)
  show normG (W7 m ρ c (Proc.devRef .tc main_v34)) (W7 m ρ c (Proc.devRef .tc main_v56)) = _
  rw [W7_v56, W7_v34, W6_v34, W6_arg5, W6_arg6, W6_v7, W4_v32]
  rfl

/-- The run: the result array ends at the whole program's function of the arguments, the arguments unchanged. -/
theorem run : θ_run defs (onTc (τ := τ) (main (F := Ideal))) ⟨m, fun _ => 0, ρ⟩ (fun r => ∀ c : Dev nD,
      r.2.mem ((c.tc : Thread nD τ).loc main_v57)
        = total (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_main m ρ)

end Cert.KernelIdeal.Whole

end
-- ==== Proof.RefSide.lean ====
/-
  The reference program's result as the same function of the seven arguments as the kernel program's.

  The reference computes, per layer: a projection X·W + b by the host's matrix product and a broadcast bias; the
  aggregate — gather by V, scatter-add by E, DIVIDE edge e's row by max(count(e), 1), gather by E, scatter-add by V —;
  the sum Z of the two; and Z / max(d, √(Σ_k Z(p,k)²)) row by row (after the first layer clipped below at 0).
  Against the kernel program's stages:
    * the host's product at an entry is the same plain contraction, and the twice-broadcast bias is the bias row;
    * dividing by the clipped count is scaling by its stored reciprocal, the divisor being ≥ 1 (law (1));
    * dividing by the clipped norm is scaling by the clipped reciprocal square root, with ε² = d² (law (2));
  the gathers and scatter-adds are the same operations on both sides and are never opened.
-/
import proofs.«144261_j48498770707323_2_alg».proof.Proof.Gen.ReferenceIdeal.Read
import proofs.«144261_j48498770707323_2_alg».proof.Proof.RegionLin
import proofs.«144261_j48498770707323_2_alg».proof.Proof.RegionNorm
import proofs.«144261_j48498770707323_2_alg».proof.Proof.Stages
import proofs.«144261_j48498770707323_2_alg».proof.Proof.Spec
import proofs.«144261_j48498770707323_2_alg».proof.Proof.LibPlainDot
import Idealize.ShloMosaic.Lib.ValueLayout

set_option maxRecDepth 16384

noncomputable section

namespace Cert.ReferenceIdeal.Stages

open Cert.ReferenceIdeal Cert.ReferenceIdeal.Facts₀ Cert.ReferenceIdeal.Facts Cert.ReferenceIdeal.Read
open Idealize.ShloMosaic Idealize.ShloMosaic.ValueIdx

/-! ## Pointwise operations and splats read at an index -/

theorem hostDivf_apply {s : Shape} (x y : FVec Ideal s .f32) (i : s.Idx) : Host.divf x y i = Ideal.div (x i) (y i) := rfl
theorem mulf_apply {s : Shape} (x y : FVec Ideal s .f32) (i : s.Idx) : mulf x y i = x i * y i := rfl
theorem addf_apply {s : Shape} (x y : FVec Ideal s .f32) (i : s.Idx) : addf x y i = x i + y i := rfl
theorem maximumf_apply {s : Shape} (x y : FVec Ideal s .f32) (i : s.Idx) : maximumf x y i = max (x i) (y i) := rfl
theorem hostSqrt_apply {s : Shape} (x : FVec Ideal s .f32) (i : s.Idx) : Host.sqrt x i = Ideal.sqrt (x i) := rfl

/-- A scalar constant broadcast to any shape reads, everywhere, the value its word denotes. -/
theorem splat_apply {t : Shape} (h : (⟨0, ![]⟩ : Shape).BroadcastsInDim t (![] : Fin 0 → Fin t.rank)) (b : BitVec 32) (j : t.Idx) :
    broadcastInDim t ![] h (constant (F := Ideal) ⟨0, ![]⟩ .f32 b) j = Ideal.ofBits .f32 b :=
  (broadcastInDim_apply _ h (constant (F := Ideal) ⟨0, ![]⟩ .f32 b) j ix0 (fun a => a.elim0)).trans rfl

/-! ## The projection -/

/-- The reference's projection: the host's product plus the bias broadcast over the rows. -/
def refProj (X : FVec Ideal S50000x768 .f32) (W : FVec Ideal S768x768 .f32) (b : FVec Ideal S768 .f32) :
    FVec Ideal S50000x768 .f32 :=
  addf (Host.dotGeneral dot_S50000x768_S768x768_S50000x768_1_0_0_1_n_n none X W)
    (broadcastInDim S50000x768 ![0, 1] bcast_S1x768_S50000x768_0_1 (broadcastInDim S1x768 ![1] bcast_S768_S1x768_1 b))

theorem dot_plain : dot_S50000x768_S768x768_S50000x768_1_0_0_1_n_n = DotDims.plain 50000 768 768 := rfl

/-- The bias broadcast to a row and then over the rows reads, at (p, q), the bias at q. -/
theorem bias_apply (b : FVec Ideal S768 .f32) (p : Fin 50000) (q : Fin 768) :
    broadcastInDim S50000x768 ![0, 1] bcast_S1x768_S50000x768_0_1 (broadcastInDim S1x768 ![1] bcast_S768_S1x768_1 b) (ix2 p q)
      = b (ix1 q) := by
  rw [broadcastInDim_apply _ bcast_S1x768_S50000x768_0_1 _ (ix2 p q) (ix2 (0 : Fin 1) q) (fun a => match a with
    | ⟨0, _⟩ => by show 0 = if (1 : Nat) = 1 then 0 else p.val; rw [if_pos rfl]
    | ⟨1, _⟩ => by show q.val = if (768 : Nat) = 1 then 0 else q.val; rw [if_neg (by decide)])]
  exact broadcastInDim_apply _ bcast_S768_S1x768_1 b (ix2 (0 : Fin 1) q) (ix1 q) (fun a => match a with
    | ⟨0, _⟩ => by show q.val = if (768 : Nat) = 1 then 0 else q.val; rw [if_neg (by decide)])

theorem linG_apply (X : FVec Ideal S50000x768 .f32) (W : FVec Ideal S768x768 .f32) (b : FVec Ideal S1x768 .f32)
    (p : Fin 50000) (q : Fin 768) :
    Cert.KernelIdeal.Lin.linG X W b (ix2 p q) = Cert.KernelIdeal.Lin.rowLin X W b p q := rfl

theorem refProj_eq (X : FVec Ideal S50000x768 .f32) (W : FVec Ideal S768x768 .f32) (b : FVec Ideal S768 .f32) :
    refProj X W b = Cert.KernelIdeal.Lin.linG X W (Cert.KernelIdeal.Stages.biasRow b) := by
  funext i
  obtain ⟨p, q, rfl⟩ : ∃ (p : Fin 50000) (q : Fin 768), i = ix2 p q := ⟨i 0, i 1, eq_ix2 i⟩
  unfold refProj
  rw [addf_apply, bias_apply, linG_apply]
  unfold Cert.KernelIdeal.Lin.rowLin Cert.KernelIdeal.Stages.biasRow
  rw [shapeCast_a_1a_apply, dot_plain]
  simp only [Host.dotGeneral]
  rw [LibPlainDot.dotGeneral_apply]

/-! ## The aggregate -/

/-- An index list with the negative entries wrapped by the length n of the axis they index. -/
def wrapIdx (n : BitVec 32) (I : IVec S200000 32) : IVec S200000x1 32 :=
  broadcastInDim S200000x1 ![0] bcast_S200000_S200000x1_0
    (select (cmpi .slt I (broadcastInDim S200000 ![] bcast_S_S200000 (constantI S_ 32 0#32)))
      (addi I (broadcastInDim S200000 ![] bcast_S_S200000 (constantI S_ 32 n))) I)

/-- The count of incidences of every hyperedge, clipped below at one. -/
def clippedCount (E : IVec S200000 32) : FVec Ideal S8000x1 .f32 :=
  maximumf (Host.scatterAdd scatter_S8000x1_S200000x1_S200000x1_1_0_0_1
      (broadcastInDim S8000x1 ![] bcast_S_S8000x1 (constant S_ .f32 0x00000000#32))
      (broadcastInDim S200000x1 ![0] bcast_S200000_S200000x1_0 E)
      (broadcastInDim S200000x1 ![] bcast_S_S200000x1 (constant S_ .f32 0x3F800000#32)))
    (broadcastInDim S8000x1 ![] bcast_S_S8000x1 (constant S_ .f32 0x3F800000#32))

/-- The per-hyperedge sums of the gathered rows. -/
def edgeSum (X : FVec Ideal S50000x768 .f32) (V E : IVec S200000 32) : FVec Ideal S8000x768 .f32 :=
  Host.scatterAdd scatter_S8000x768_S200000x1_S200000x768_1_0_0_1
    (broadcastInDim S8000x768 ![] bcast_S_S8000x768 (constant S_ .f32 0x00000000#32))
    (broadcastInDim S200000x1 ![0] bcast_S200000_S200000x1_0 E)
    (Host.gather gather_S50000x768_S200000x1_S200000x768_1_0_n_n_0_1_1768 X (wrapIdx 50000#32 V))

/-- From the per-hyperedge rows back to the vertices. -/
def spread (Xe : FVec Ideal S8000x768 .f32) (V E : IVec S200000 32) : FVec Ideal S50000x768 .f32 :=
  Host.scatterAdd scatter_S50000x768_S200000x1_S200000x768_1_0_0_1
    (broadcastInDim S50000x768 ![] bcast_S_S50000x768 (constant S_ .f32 0x00000000#32))
    (broadcastInDim S200000x1 ![0] bcast_S200000_S200000x1_0 V)
    (Host.gather gather_S8000x768_S200000x1_S200000x768_1_0_n_n_0_1_1768 Xe (wrapIdx 8000#32 E))

/-- The reference's aggregate: the per-hyperedge sums divided by the clipped counts, spread back. -/
def refAgg (X : FVec Ideal S50000x768 .f32) (V E : IVec S200000 32) : FVec Ideal S50000x768 .f32 :=
  spread (Host.divf (edgeSum X V E) (broadcastInDim S8000x768 ![0, 1] bcast_S8000x1_S8000x768_0_1 (clippedCount E))) V E

/-- The two programs' shared operations are the same functions. -/
theorem edgeSum_eq (X : FVec Ideal S50000x768 .f32) (V E : IVec S200000 32) :
    edgeSum X V E = Cert.KernelIdeal.Stages.edgeSum X V E := rfl
theorem spread_eq (Xe : FVec Ideal S8000x768 .f32) (V E : IVec S200000 32) :
    spread Xe V E = Cert.KernelIdeal.Stages.spread Xe V E := rfl
theorem clippedCount_eq (E : IVec S200000 32) : clippedCount E = Cert.KernelIdeal.Stages.clippedCount E := rfl

/-- A per-hyperedge column broadcast over the 768 columns reads, at (e, q), the column's entry e. -/
theorem col_apply (r : FVec Ideal Cert.KernelIdeal.S8000x1 .f32) (e : Fin 8000) (q : Fin 768) :
    broadcastInDim Cert.KernelIdeal.S8000x768 ![0, 1] Cert.KernelIdeal.Facts₀.bcast_S8000x1_S8000x768_0_1 r (ix2 e q)
      = r (ix2 e (0 : Fin 1)) :=
  broadcastInDim_apply _ Cert.KernelIdeal.Facts₀.bcast_S8000x1_S8000x768_0_1 r (ix2 e q) (ix2 e (0 : Fin 1)) (fun a => match a with
    | ⟨0, _⟩ => by show e.val = if (8000 : Nat) = 1 then 0 else e.val; rw [if_neg (by decide)]
    | ⟨1, _⟩ => by show 0 = if (1 : Nat) = 1 then 0 else q.val; rw [if_pos rfl])

/-- Dividing the per-hyperedge sums by the clipped counts is scaling them by the stored reciprocals. -/
theorem scale_eq (S : FVec Ideal Cert.KernelIdeal.S8000x768 .f32) (E : IVec Cert.KernelIdeal.S200000 32) :
    Host.divf S (broadcastInDim Cert.KernelIdeal.S8000x768 ![0, 1] Cert.KernelIdeal.Facts₀.bcast_S8000x1_S8000x768_0_1 (Cert.KernelIdeal.Stages.clippedCount E))
      = mulf S (broadcastInDim Cert.KernelIdeal.S8000x768 ![0, 1] Cert.KernelIdeal.Facts₀.bcast_S8000x1_S8000x768_0_1 (Cert.KernelIdeal.Stages.invCount E)) := by
  funext i
  obtain ⟨e, q, rfl⟩ : ∃ (e : Fin 8000) (q : Fin 768), i = ix2 e q := ⟨i 0, i 1, eq_ix2 i⟩
  rw [hostDivf_apply, mulf_apply, col_apply, col_apply]
  unfold Cert.KernelIdeal.Stages.invCount
  rw [hostDivf_apply, splat_apply, Cert.Spec.ofBits_one]
  refine (Cert.Spec.mul_one_div ?_).symm
  unfold Cert.KernelIdeal.Stages.clippedCount
  rw [maximumf_apply, splat_apply, Cert.Spec.ofBits_one]
  exact Cert.Spec.max_one_ne_zero _

theorem refAgg_eq (X : FVec Ideal S50000x768 .f32) (V E : IVec S200000 32) :
    refAgg X V E = Cert.KernelIdeal.Stages.aggregate X V E (Cert.KernelIdeal.Stages.invCount E) := by
  unfold refAgg Cert.KernelIdeal.Stages.aggregate
  rw [spread_eq, edgeSum_eq, clippedCount_eq]
  exact congrArg (fun Z => Cert.KernelIdeal.Stages.spread Z V E) (scale_eq _ E)

/-! ## The normalisation -/

/-- The reference's divisor: the row's norm clipped below, broadcast over the columns. -/
def refDen (Z : FVec Ideal S50000x768 .f32) : FVec Ideal S50000x768 .f32 :=
  broadcastInDim S50000x768 ![0, 1] bcast_S50000x1_S50000x768_0_1
    (maximumf (broadcastInDim S50000x1 ![] bcast_S_S50000x1 (id (constant S_ .f32 0x2B8CBCCC#32)))
      (Host.sqrt (broadcastInDim S50000x1 ![0] bcast_S50000_S50000x1_0
        (Host.reduceAdd (mulf Z Z) (constant S_ .f32 0x00000000#32) reducesTo_S50000x768_S50000_d1 h_S_))))

/-- The reference's normalisation of the sum of two arrays. -/
def refNorm (X Y : FVec Ideal S50000x768 .f32) : FVec Ideal S50000x768 .f32 :=
  Host.divf (addf X Y) (refDen (addf X Y))

/-- The divisor at (p, q): the clip constant against the square root of row p's sum of squares. -/
theorem refDen_apply (Z : FVec Ideal S50000x768 .f32) (p : Fin 50000) (q : Fin 768) :
    refDen Z (ix2 p q) = max (Ideal.ofBits .f32 0x2B8CBCCC#32) (Ideal.sqrt (∑ k : Fin 768, Z (ix2 p k) * Z (ix2 p k))) := by
  unfold refDen
  rw [broadcastInDim_apply _ bcast_S50000x1_S50000x768_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])]
  simp only [id_eq]
  rw [maximumf_apply, hostSqrt_apply, splat_apply]
  rw [broadcastInDim_apply _ bcast_S50000_S50000x1_0 _ (ix2 p (0 : Fin 1)) (ix1 p) (fun a => match a with
    | ⟨0, _⟩ => by show p.val = if (50000 : Nat) = 1 then 0 else p.val; rw [if_neg (by decide)])]
  refine congrArg (fun s => max (Ideal.ofBits .f32 0x2B8CBCCC#32) (Ideal.sqrt s)) ?_
  have hsum : ∀ y0 : FVec Ideal S50000x768 .f32,
      Host.reduceAdd y0 (constant S_ .f32 0x00000000#32) reducesTo_S50000x768_S50000_d1 h_S_ (ix1 p) = ∑ k : Fin 768, y0 (ix2 p k) := by
    intro y0
    simp only [Host.reduceAdd, Ideal.hostReduceAdd_def]
    rw [Ideal.hostReduceAdd_single reducesTo_S50000x768_S50000_d1 (by decide)]
    show Ideal.ofBits .f32 0x00000000#32 + _ = _
    rw [Cert.Spec.ofBits_zero, zero_add]
    refine Finset.sum_congr rfl fun k _ => ?_
    exact congrArg y0 (funext fun a => Fin.ext (by match a with | ⟨0, _⟩ => rfl | ⟨1, _⟩ => rfl))
  rw [hsum]
  rfl

theorem normG_apply (X Y : FVec Ideal S50000x768 .f32) (p : Fin 50000) (q : Fin 768) :
    Cert.KernelIdeal.Norm.normG X Y (ix2 p q) = Cert.KernelIdeal.Norm.rowNorm X Y p q := rfl

theorem refNorm_eq (X Y : FVec Ideal S50000x768 .f32) : refNorm X Y = Cert.KernelIdeal.Norm.normG X Y := by
  funext i
  obtain ⟨p, q, rfl⟩ : ∃ (p : Fin 50000) (q : Fin 768), i = ix2 p q := ⟨i 0, i 1, eq_ix2 i⟩
  unfold refNorm
  rw [hostDivf_apply, refDen_apply, Cert.Spec.ofBits_clip, normG_apply]
  unfold Cert.KernelIdeal.Norm.rowNorm Cert.KernelIdeal.Norm.epsq
  simp only [addf_apply]
  rw [Cert.Spec.clip_sq]
  exact (Cert.Spec.norm_law _ _ Cert.Spec.clip_pos).symm

/-- The reference's first layer clips the normalised rows below at 0. -/
theorem refNormRelu_eq (X Y : FVec Ideal S50000x768 .f32) :
    maximumf (refNorm X Y) (broadcastInDim S50000x768 ![] bcast_S_S50000x768 (constant S_ .f32 0x00000000#32))
      = Cert.KernelIdeal.Norm.normReluG X Y := by
  rw [refNorm_eq]
  funext i
  rw [maximumf_apply, splat_apply, Cert.Spec.ofBits_zero]
  rfl

/-! ## The reference's stages are these operations -/

variable (x0 : FVec Ideal S50000x768 .f32) (x1 : FVec Ideal S768x768 .f32) (x2 : FVec Ideal S768 .f32)
  (x3 : FVec Ideal S768x768 .f32) (x4 : FVec Ideal S768 .f32) (x5 x6 : IVec S200000 32)

theorem v3_eq : val_main_v3 (F := Ideal) x0 x1 x2 = refProj x0 x1 x2 := rfl
theorem v31_eq : val_main_v31 (F := Ideal) x0 x1 x2 x5 x6 = refAgg (val_main_v3 (F := Ideal) x0 x1 x2) x5 x6 := rfl
theorem v37_eq : val_main_v37 (F := Ideal) x0 x1 x2 x5 x6
    = maximumf (refNorm (val_main_v3 (F := Ideal) x0 x1 x2) (val_main_v31 (F := Ideal) x0 x1 x2 x5 x6))
        (broadcastInDim S50000x768 ![] bcast_S_S50000x768 (constant S_ .f32 0x00000000#32)) := rfl
theorem v41_eq : val_main_v41 (F := Ideal) x0 x1 x2 x3 x4 x5 x6 = refProj (val_main_v37 (F := Ideal) x0 x1 x2 x5 x6) x3 x4 := rfl
theorem v69_eq : val_main_v69 (F := Ideal) x0 x1 x2 x3 x4 x5 x6 = refAgg (val_main_v41 (F := Ideal) x0 x1 x2 x3 x4 x5 x6) x5 x6 := rfl
theorem v74_eq : val_main_v74 (F := Ideal) x0 x1 x2 x3 x4 x5 x6
    = refNorm (val_main_v41 (F := Ideal) x0 x1 x2 x3 x4 x5 x6) (val_main_v69 (F := Ideal) x0 x1 x2 x3 x4 x5 x6) := rfl

/-- The first layer's output. -/
def hidden : FVec Ideal S50000x768 .f32 :=
  Cert.KernelIdeal.Norm.normReluG (Cert.KernelIdeal.Lin.linG x0 x1 (Cert.KernelIdeal.Stages.biasRow x2))
    (Cert.KernelIdeal.Stages.aggregate (Cert.KernelIdeal.Lin.linG x0 x1 (Cert.KernelIdeal.Stages.biasRow x2)) x5 x6
      (Cert.KernelIdeal.Stages.invCount x6))

theorem v37_hidden : val_main_v37 (F := Ideal) x0 x1 x2 x5 x6 = hidden x0 x1 x2 x5 x6 := by
  rw [v37_eq, refNormRelu_eq, v31_eq, v3_eq, refProj_eq, refAgg_eq]
  rfl

/-- The reference's result is the kernel program's function of the arguments. -/
theorem result_eq : val_main_v74 (F := Ideal) x0 x1 x2 x3 x4 x5 x6
    = Cert.KernelIdeal.Norm.normG (Cert.KernelIdeal.Lin.linG (hidden x0 x1 x2 x5 x6) x3 (Cert.KernelIdeal.Stages.biasRow x4))
        (Cert.KernelIdeal.Stages.aggregate (Cert.KernelIdeal.Lin.linG (hidden x0 x1 x2 x5 x6) x3 (Cert.KernelIdeal.Stages.biasRow x4)) x5 x6
          (Cert.KernelIdeal.Stages.invCount x6)) := by
  rw [v74_eq, refNorm_eq, v69_eq, v41_eq, v37_hidden, refProj_eq, refAgg_eq]

end Cert.ReferenceIdeal.Stages

end
-- ==== Proof.lean ====
/-
  Two layers of hypergraph message passing with row normalisation, kernel program against reference, over the
  extended reals.

  Both programs compute, layer by layer, a projection X·W + b, an aggregate (gather the vertex rows along the
  incidence list, sum them per hyperedge, take the mean over max(count, 1), send the means back along the incidence
  list and sum them per vertex), and the row-normalised sum of the two (after the first layer clipped below at 0).
  They differ in three places, each an identity on the extended reals that needs no finiteness:
    * the kernel's projection runs on the matrix unit block by block with narrowed operands: a change of format is the
      identity and the product into a zero accumulator is the plain contraction, as the host's product is;
    * the kernel scales the per-hyperedge sums by a reciprocal 1 / max(count, 1) computed once, the reference divides
      by max(count, 1): a · (1 / c) = a / c for every c ≠ 0, and c ≥ 1;
    * the kernel multiplies a row by rsqrt(max(s, ε²)), s the row's sum of squares, the reference divides it by
      max(d, √s): with ε² = d² these agree for every extended real s.
  The kernel's clip constant is named ε² = d², d the reference's own clip constant (the one ledger rule, at its two
  sites).  The precondition is not used.
-/
import proofs.«144261_j48498770707323_2_alg».proof.Defs
import proofs.«144261_j48498770707323_2_alg».proof.Proof.Gen.Kernel
import proofs.«144261_j48498770707323_2_alg».proof.Proof.Gen.Kernel.Skeleton
import proofs.«144261_j48498770707323_2_alg».proof.Proof.Gen.Kernel.Launch
import proofs.«144261_j48498770707323_2_alg».proof.Proof.Gen.Kernel.Points
import proofs.«144261_j48498770707323_2_alg».proof.Proof.Gen.Kernel.Frame
import proofs.«144261_j48498770707323_2_alg».proof.Proof.Gen.KernelIdeal
import proofs.«144261_j48498770707323_2_alg».proof.Proof.Gen.KernelIdeal.Skeleton
import proofs.«144261_j48498770707323_2_alg».proof.Proof.Gen.KernelIdeal.Launch
import proofs.«144261_j48498770707323_2_alg».proof.Proof.Gen.KernelIdeal.Points
import proofs.«144261_j48498770707323_2_alg».proof.Proof.Gen.KernelIdeal.Frame
import proofs.«144261_j48498770707323_2_alg».proof.Proof.Gen.ReferenceIdeal
import proofs.«144261_j48498770707323_2_alg».proof.Proof.Gen.ReferenceIdeal.Run
import proofs.«144261_j48498770707323_2_alg».proof.Proof.Gen.ReferenceIdeal.Read
import proofs.«144261_j48498770707323_2_alg».proof.Proof.Gen.Pre_finite_inputs
import proofs.«144261_j48498770707323_2_alg».proof.Proof.KValue
import proofs.«144261_j48498770707323_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's two entries are one rule at two sites: the table gives the clip constant's name the value d². -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
   IdealRules.named_const.statement Cert.KernelIdeal.κ "eps_sq" .f32 0x179ABE15#32
      ((5316911940649 / 5316911983139663491615228241121378304 : ℝ) : EReal) rfl⟩

/-- Both runs end at one function of the arguments. -/
theorem algebraic : Cert.algebraic_KernelIdeal_ReferenceIdeal := by
  intro m ρ m' ρ' _ hagree
  refine ⟨fun c => Cert.KernelIdeal.Whole.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v74_eq, e0, e1, e2, e3, e4, e5, e6, Cert.ReferenceIdeal.Stages.result_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
